-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_arg5 : FVec F S4096 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg4 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 16384#32
  let main_v28 : IVec S4096 32 := broadcastInDim S4096 ![] bcast_S_S4096 main_c_10
  let main_v29 : IVec S4096 1 := cmpi .slt main_arg4 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S16384x4096 .f32) (main_arg1 : FVec F S14336x4096 .f32) (main_arg2 : FVec F S14336x4096 .f32) (main_arg3 : FVec F S4096x14336 .f32) (main_arg4 : IVec S4096 32) (main_arg5 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg4 main_arg5 main_v13 main_v16
-- ==== Kernel.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4096 : Shape := ⟨2, ![4096, 4096]⟩
abbrev S256x4096 : Shape := ⟨2, ![256, 4096]⟩
abbrev S512x4096 : Shape := ⟨2, ![512, 4096]⟩
abbrev S256x1 : Shape := ⟨2, ![256, 1]⟩
abbrev S256x512 : Shape := ⟨2, ![256, 512]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 33
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096, .i32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S4096x1, .f32⟩
  | .hbm, ⟨31, _⟩ => ⟨S4096x14336, .bf16⟩
  | .hbm, ⟨32, _⟩ => ⟨S4096x4096, .f32⟩
  | .local _ .vmem, ⟨0, _⟩ => ⟨S256x4096, .bf16⟩
  | .local _ .vmem, ⟨1, _⟩ => ⟨S256x4096, .bf16⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S256x1, .f32⟩
  | .local _ .vmem, ⟨7, _⟩ => ⟨S256x1, .f32⟩
  | .local _ .vmem, ⟨8, _⟩ => ⟨S256x512, .bf16⟩
  | .local _ .vmem, ⟨9, _⟩ => ⟨S256x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .f32⟩
  | .local _ .vmem, ⟨13, _⟩ => ⟨S1024x512, .f32⟩
  | .local _ .vmem, ⟨14, _⟩ => ⟨S2048x1024, .f32⟩
  | .local _ .vmem, ⟨15, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![28, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 4, 28], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bitsLt_bf16_f32 : FTy.bits .bf16 < FTy.bits .f32
  shapeCasts_S4096_S4096x1 : S4096.ShapeCasts S4096x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  gather_S16384x4096_S4096x1_S4096x4096_1_0_n_n_0_1_14096_wf : GatherDims.WF S16384x4096 S4096x1 S4096x4096 [1] [0] [] [0] [] 1 ![1, 4096]
  dot_S256x4096_S512x4096_S256x512_1_1_0_0_n_n_wf : DotDims.WF S256x4096 S512x4096 S256x512 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .f32 = 32 ∨ (Rect.block (s := S14336x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .f32 = 32 ∨ (Rect.block (s := S14336x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x14336.size a
  hwx0_4 : ∀ i : grid0.Coords, EltTy.bits .bf16 = 32 ∨ (Rect.block (s := S4096x14336) S256x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x14336.size a
  hwx1_0 : ∀ i : grid1.Coords, EltTy.bits .bf16 = 32 ∨ (Rect.block (s := S4096x14336) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x14336.size a
  hwx1_1 : ∀ i : grid1.Coords, EltTy.bits .f32 = 32 ∨ (Rect.block (s := S4096x14336) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S4096x4096.size a
  hwx1_2 : ∀ i : grid1.Coords, EltTy.bits .f32 = 32 ∨ (Rect.block (s := S4096x4096) S2048x1024.size (cc1_transform_2 i) (hinb1_2 i)).WholeWords (EltTy.packing .f32)

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096, .i32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x14336, .f32⟩
  | .hbm, ⟨30, _⟩ => ⟨S4096x14336, .f32⟩
  | .hbm, ⟨31, _⟩ => ⟨S4096x14336, .f32⟩
  | .hbm, ⟨32, _⟩ => ⟨S4096x14336, .f32⟩
  | .hbm, ⟨33, _⟩ => ⟨S_, .f32⟩
  | .hbm, ⟨34, _⟩ => ⟨S4096x14336, .f32⟩
  | .hbm, ⟨35, _⟩ => ⟨S4096x14336, .f32⟩
  | .hbm, ⟨36, _⟩ => ⟨S_, .f32⟩
  | .hbm, ⟨37, _⟩ => ⟨S4096x14336, .f32⟩
  | .hbm, ⟨38, _⟩ => ⟨S4096x14336, .f32⟩
  | .hbm, ⟨39, _⟩ => ⟨S4096x14336, .f32⟩
  | .hbm, ⟨40, _⟩ => ⟨S4096x14336, .f32⟩
  | .hbm, ⟨41, _⟩ => ⟨S4096x4096, .f32⟩
  | .hbm, ⟨42, _⟩ => ⟨S4096x1, .f32⟩
  | .hbm, ⟨43, _⟩ => ⟨S4096x4096, .f32⟩
  | .hbm, ⟨44, _⟩ => ⟨S4096x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bcast_S_S4096x14336 : S_.BroadcastsInDim S4096x14336 (![] : Fin 0 → Fin S4096x14336.rank)
  bcast_S4096x1_S4096x4096_0_1 : S4096x1.BroadcastsInDim S4096x4096 (![0, 1] : Fin 2 → Fin S4096x4096.rank)
  gather_S16384x4096_S4096x1_S4096x4096_1_0_n_n_0_1_14096_wf : GatherDims.WF S16384x4096 S4096x1 S4096x4096 [1] [0] [] [0] [] 1 ![1, 4096]
  dot_S4096x4096_S14336x4096_S4096x14336_1_1_0_0_n_n_wf : DotDims.WF S4096x4096 S14336x4096 S4096x14336 [1] [1] [0] [0] [] []
  dot_S4096x14336_S4096x14336_S4096x4096_1_1_0_0_n_n_wf : DotDims.WF S4096x14336 S4096x14336 S4096x4096 [1] [1] [0] [0] [] []

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.Spec.lean ====
/-
  The mathematics both programs compute, stated once over the extended reals.

  A token table `x : [16384, 4096]` is indexed by `4096` signed integers `tx`: row `n` of the selected tokens `X` is
  row `tx n` of `x` (an integer below zero counts from the end; a row whose integer is out of range is filled with
  the not-a-number word). With `g = X · Wgᵀ` and `u = X · Wuᵀ` the hidden activation is `silu g · u`, where
  `silu g = g · 1/(1 + e^(-g))`, and the result is the hidden activation against the rows of `Wd`, each token scaled by
  its routing weight `w n`. One program scales the hidden activation before the last product (`outInside`), the other
  scales the product (`outOutside`); for real entries the two agree, the weight of token `n` being a common factor of
  every term of the sum over the hidden units.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S16384x4096 : Shape := ⟨2, ![16384, 4096]⟩
abbrev S14336x4096 : Shape := ⟨2, ![14336, 4096]⟩
abbrev S4096x14336 : Shape := ⟨2, ![4096, 14336]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

/-- A matrix of extended reals. -/
abbrev Mat (a b : ℕ) : Type := (⟨2, ![a, b]⟩ : Shape).Idx → EReal

/-! ## Selecting the tokens -/

/-- The shape relations the selection's operations take. -/
structure TakeFacts : Prop where
  b_S_S4096 : S_.BroadcastsInDim S4096 (![] : Fin 0 → Fin S4096.rank)
  b_S4096_S4096x1_0 : S4096.BroadcastsInDim S4096x1 (![0] : Fin 1 → Fin S4096x1.rank)
  b_S_S4096x1 : S_.BroadcastsInDim S4096x1 (![] : Fin 0 → Fin S4096x1.rank)
  b_S1_S1x1_1 : S1.BroadcastsInDim S1x1 (![1] : Fin 1 → Fin S1x1.rank)
  b_S1x1_S4096x1_0_1 : S1x1.BroadcastsInDim S4096x1 (![0, 1] : Fin 2 → Fin S4096x1.rank)
  red_S4096x1_S4096_d1 : S4096x1.ReducesTo [1] S4096
  h_S_ : 0 < S_.numel
  b_S4096_S4096x4096_0 : S4096.BroadcastsInDim S4096x4096 (![0] : Fin 1 → Fin S4096x4096.rank)
  b_S_S4096x4096 : S_.BroadcastsInDim S4096x4096 (![] : Fin 0 → Fin S4096x4096.rank)
  gwf : GatherDims.WF S16384x4096 S4096x1 S4096x4096 [1] [0] [] [0] [] 1 ![1, 4096]

/-- The relations hold: each is decided on the literal shapes. -/
theorem takeFacts : TakeFacts :=
  ⟨by decide, by decide, by decide, by decide, by decide, by decide, by decide, by decide, by decide, by decide⟩

/-- Whole rows of a `[16384, 4096]` table gathered through a column of `4096` integers. -/
def rowsDims (hf : TakeFacts) : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := hf.gwf

/-- The integers brought into `[0, 16384)`: one below zero counts from the end. -/
def wrapIdx (hf : TakeFacts) (tx : IVec S4096 32) : IVec S4096 32 :=
  select (cmpi .slt tx (broadcastInDim S4096 ![] hf.b_S_S4096 (constantI S_ 32 0#32)))
    (addi tx (broadcastInDim S4096 ![] hf.b_S_S4096 (constantI S_ 32 16384#32))) tx

/-- The wrapped integers as a column. -/
def idxCol (hf : TakeFacts) (tx : IVec S4096 32) : IVec S4096x1 32 :=
  broadcastInDim S4096x1 ![0] hf.b_S4096_S4096x1_0 (wrapIdx hf tx)

/-- Per token: is its wrapped integer a row of the table (`0 ≤ · ≤ 16383`)? -/
def inTable (hf : TakeFacts) (tx : IVec S4096 32) : IVec S4096 1 :=
  Host.reduce IntOp.andi
    (andi (cmpi .sge (idxCol hf tx) (broadcastInDim S4096x1 ![] hf.b_S_S4096x1 (constantI S_ 32 0#32)))
      (cmpi .sle (idxCol hf tx)
        (broadcastInDim S4096x1 ![0, 1] hf.b_S1x1_S4096x1_0_1
          (broadcastInDim S1x1 ![1] hf.b_S1_S1x1_1 (constantI S1 32 16383#32)))))
    (constantI S_ 1 1#1) hf.red_S4096x1_S4096_d1 hf.h_S_

/-- The selected tokens: the gathered rows where the integer is a row of the table, the not-a-number word elsewhere. -/
def takeRows (hf : TakeFacts) (x : FVec Ideal S16384x4096 .f32) (tx : IVec S4096 32) : FVec Ideal S4096x4096 .f32 :=
  select (broadcastInDim S4096x4096 ![0] hf.b_S4096_S4096x4096_0 (inTable hf tx))
    (Host.gather (rowsDims hf) x (idxCol hf tx))
    (broadcastInDim S4096x4096 ![] hf.b_S_S4096x4096 (constant (F := Ideal) S_ .f32 0x7FC00000#32))

/-! ## The feed-forward block -/

/-- Token `n` against row `i` of a projection matrix. -/
def proj (X : Mat 4096 4096) (W : Mat 14336 4096) (n : Fin 4096) (i : Fin 14336) : EReal :=
  ∑ h : Fin 4096, X (ix2 n h) * W (ix2 i h)

/-- `silu g = g · 1/(1 + e^(-g))`. -/
def silu (g : EReal) : EReal := g * Ideal.logistic g

/-- The hidden activation of token `n` at unit `i`. -/
def hid (X : Mat 4096 4096) (Wg Wu : Mat 14336 4096) (n : Fin 4096) (i : Fin 14336) : EReal :=
  silu (proj X Wg n i) * proj X Wu n i

/-- The hidden activation with each token's weight (a column) applied, as a matrix. -/
def hiddenW (X : Mat 4096 4096) (Wg Wu : Mat 14336 4096) (w : (⟨2, ![4096, 1]⟩ : Shape).Idx → EReal) : Mat 4096 14336 :=
  fun j => hid X Wg Wu (j 0) (j 1) * w (ix2 (j 0) (0 : Fin 1))

theorem hiddenW_apply (X : Mat 4096 4096) (Wg Wu : Mat 14336 4096) (w : (⟨2, ![4096, 1]⟩ : Shape).Idx → EReal)
    (n : Fin 4096) (i : Fin 14336) : hiddenW X Wg Wu w (ix2 n i) = hid X Wg Wu n i * w (ix2 n (0 : Fin 1)) := rfl

/-- Rows of `H` against rows of `Wd`. -/
def rowsDot (H Wd : Mat 4096 14336) : Mat 4096 4096 :=
  fun j => ∑ i : Fin 14336, H (ix2 (j 0) i) * Wd (ix2 (j 1) i)

theorem rowsDot_apply (H Wd : Mat 4096 14336) (n j : Fin 4096) :
    rowsDot H Wd (ix2 n j) = ∑ i : Fin 14336, H (ix2 n i) * Wd (ix2 j i) := rfl

/-- The result with each token's weight applied to its hidden activation, before the last product. -/
def outInside (X : Mat 4096 4096) (Wg Wu : Mat 14336 4096) (Wd : Mat 4096 14336) (w : Fin 4096 → EReal)
    (n j : Fin 4096) : EReal :=
  ∑ i : Fin 14336, (hid X Wg Wu n i * w n) * Wd (ix2 j i)

/-- The result with each token's weight applied after the last product. -/
def outOutside (X : Mat 4096 4096) (Wg Wu : Mat 14336 4096) (Wd : Mat 4096 14336) (w : Fin 4096 → EReal)
    (n j : Fin 4096) : EReal :=
  (∑ i : Fin 14336, hid X Wg Wu n i * Wd (ix2 j i)) * w n

/-- The whole result array, the weight outside, of the argument arrays. -/
def result (hf : TakeFacts) (x : FVec Ideal S16384x4096 .f32) (wg wu : FVec Ideal S14336x4096 .f32)
    (wd : FVec Ideal S4096x14336 .f32) (tx : IVec S4096 32) (w : FVec Ideal S4096 .f32) : FVec Ideal S4096x4096 .f32 :=
  fun j => outOutside (takeRows hf x tx) wg wu wd (fun n => w (ix1 n)) (j 0) (j 1)

theorem result_apply (hf : TakeFacts) (x : FVec Ideal S16384x4096 .f32) (wg wu : FVec Ideal S14336x4096 .f32)
    (wd : FVec Ideal S4096x14336 .f32) (tx : IVec S4096 32) (w : FVec Ideal S4096 .f32) (n j : Fin 4096) :
    result hf x wg wu wd tx w (ix2 n j) = outOutside (takeRows hf x tx) wg wu wd (fun n => w (ix1 n)) n j := rfl

/-! ## The stated domain -/

/-- Every entry is a real number. -/
def Real' {s : Shape} (a : s.Idx → EReal) : Prop := ∀ i, ∃ r : ℝ, a i = (r : EReal)

/-- Every integer, read signed, is a row of the table. -/
def InTable (tx : IVec S4096 32) : Prop := ∀ n : Fin 4096, 0 ≤ (tx (ix1 n)).toInt ∧ (tx (ix1 n)).toInt < 16384

end Cert.Spec

end
-- ==== Proof.LibTRefCast.lean ====
/-
  A typed reference to a tensor value's buffer carries the equation between the buffer's declared type and the value's type,
  and contents are moved to the buffer's own type and back along that equation. The two transports undo each other. A host
  operation of a module-local function is written over such references, so the value one of them leaves in its result buffer is
  wrapped in one pair of transports per operand; removing the pairs first leaves the plain composition of the operations'
  functions, which can then be compared with another spelling of the same composition without unfolding any operation.
-/
import Idealize.ShloMosaic.Lib.StableHlo

namespace Cert.Lib.TRefCast

open Idealize.ShloMosaic

variable {sig : RefSig} {Val : EltTy → Type} {T : BufTy}

/-- Contents moved to the buffer's own type and back are the contents. -/
theorem ofBuf_toBuf (x : StableHlo.TRef sig T) (v : T.Contents Val) : x.ofBuf (x.toBuf v) = v := by
  obtain ⟨r, h, h2, h3⟩ := x
  subst h
  rfl

/-- Contents of the buffer moved to the value's type and back are the contents. -/
theorem toBuf_ofBuf (x : StableHlo.TRef sig T) (v : x.ref.ty.Contents Val) : x.toBuf (x.ofBuf v) = v := by
  obtain ⟨r, h, h2, h3⟩ := x
  subst h
  rfl

end Cert.Lib.TRefCast
-- ==== Proof.Prefix.lean ====
/-
  What the first kernel region finds in its operands.

  Before the first region the host gathers the selected tokens (and changes their format, which is the identity on the
  extended reals) and reshapes the routing weights into a column; the three weight matrices are the arguments as
  launched. Neither region writes an argument, so the second region finds the down projection as launched too.
-/
import proofs.«150833_j17051020165440_2_alg».proof.Proof.Gen.KernelIdeal.Frame
import proofs.«150833_j17051020165440_2_alg».proof.Proof.Spec
import proofs.«150833_j17051020165440_2_alg».proof.Proof.LibTRefCast
import Idealize.ShloMosaic.Lib.StableHlo.Run

noncomputable section

open Idealize.ShloMosaic Idealize.ShloMosaic.TcCoe Idealize.SL.Sem
open Idealize.ShloMosaic.Pipeline (Dat)

namespace Cert.KernelIdeal.Prefix

open Cert.KernelIdeal Cert.KernelIdeal.Gen Idealize.ShloMosaic.ValueIdx Idealize.ShloMosaic.StableHlo

variable (m : (ℓ : Loc nD τ sig) → Buf (Elt Ideal) ℓ) (ρ : Dev nD → PrngReg)

attribute [local irreducible] Host.gather Host.reduce in
set_option maxHeartbeats 1000000 in
/-- The first region's token operand: the selected tokens of the launched table and indices. -/
theorem V2_tokens (c : Dev nD) :
    (V2 m ρ c main_v1 : S4096x4096.Idx → EReal)
      = Cert.Spec.takeRows Cert.Spec.takeFacts (m ((c.tc : Thread nD τ).loc main_arg0)) (m ((c.tc : Thread nD τ).loc main_arg4)) := by
  show StableHlo.after hostOps0_1 (StableHlo.after hostOps0 (W0 m ρ c)) (Proc.devRef .tc main_v1) = _
  after_results
  simp only [Cert.Lib.TRefCast.ofBuf_toBuf]
  rfl

/-- The first region's weight operand: the launched routing weights as a column. -/
theorem V2_weight (c : Dev nD) :
    (V2 m ρ c main_v2 : S4096x1.Idx → EReal)
      = shapeCast S4096x1 (m ((c.tc : Thread nD τ).loc main_arg5)) shapeCasts_S4096_S4096x1 := by
  show StableHlo.after hostOps0_1 (StableHlo.after hostOps0 (W0 m ρ c)) (Proc.devRef .tc main_v2) = _
  after_results
  rfl

/-- The gate projection as the first region finds it. -/
theorem V2_gate (c : Dev nD) : V2 m ρ c main_arg1 = m ((c.tc : Thread nD τ).loc main_arg1) := by
  show StableHlo.after hostOps0_1 (StableHlo.after hostOps0 (W0 m ρ c)) (Proc.devRef .tc main_arg1) = _
  after_results

/-- The up projection as the first region finds it. -/
theorem V2_up (c : Dev nD) : V2 m ρ c main_arg2 = m ((c.tc : Thread nD τ).loc main_arg2) := by
  show StableHlo.after hostOps0_1 (StableHlo.after hostOps0 (W0 m ρ c)) (Proc.devRef .tc main_arg2) = _
  after_results

/-- The down projection as the second region finds it. -/
theorem V3_down (c : Dev nD) : V3 m ρ c main_arg3 = m ((c.tc : Thread nD τ).loc main_arg3) := by
  refine (W3_of_ne m ρ c main_arg3 (by decide)).trans ?_
  show StableHlo.after hostOps0_1 (StableHlo.after hostOps0 (W0 m ρ c)) (Proc.devRef .tc main_arg3) = _
  after_results

end Cert.KernelIdeal.Prefix

end
-- ==== Proof.DownCases.lean ====
/-
  The down projection's kernel body, one grid point at a time.

  The output block of a grid point (2048 tokens by 1024 output columns) stays in place over the 28 steps of the
  hidden axis. At a step the body leaves in it what it held plus the product of the step's block of the weighted hidden
  activation (2048 by 512) with the step's block of the down projection (1024 by 512), rows against rows; at the first
  step of a block it starts from zero instead of from what the block held.
-/
import proofs.«150833_j17051020165440_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Down

open Cert.KernelIdeal Cert.KernelIdeal.Gen

variable {F : FTy → Type} [FloatOps F]

theorem hz : (![0, 0] : Fin 2 → Nat) = fun _ => 0 := funext fun a => by fin_cases a <;> rfl

/-- The zero block an output block starts from. -/
abbrev zero : Vec F S2048x1024 .f32 := broadcast S2048x1024 (Scalar.ofBits .f32 0x00000000#32)

/-- One step's contribution: the step's block of the hidden activation against the step's block of the down
    projection, rows against rows, from a zero accumulator. -/
def part (x0 : Vec F S2048x512 .bf16) (x1 : Vec F S1024x512 .f32) : FVec F S2048x1024 .f32 :=
  matmul dot_S2048x512_S1024x512_S2048x1024_1_1_0_0_n_n none x0 (truncf .bf16 x1 bitsLt_bf16_f32)
    (constant S2048x1024 .f32 0x00000000#32)

/-- A later step of a block: the body adds the step's contribution to what the block held. -/
theorem out_B (c : Dev nD) (i : grid1.Coords) (a3 : Memref sig .tc .vmem S2048x512 .bf16) (h3 : a3.IsWhole)
    (a4 : Memref sig .tc .vmem S1024x512 .f32) (h4 : a4.IsWhole) (a5 : Memref sig .tc .vmem S2048x1024 .f32) (h5 : a5.IsWhole)
    (hc : ¬cond1_0 i) (x0 : Vec F S2048x512 .bf16) (x1 : Vec F S1024x512 .f32) (xo : Vec F S2048x1024 .f32) :
    out1_B_2 c i a3 h3 a4 h4 a5 h5 hc x0 x1 xo = addf xo (part x0 x1) := by
  unfold out1_B_2
  rw [View.read_writes_eq_canon _ _ _ (cover1_B_2 c i a3 h3 a4 h4 a5 h5 hc x0 x1 xo)]
  unfold kernelRun1_B
  dsimp only
  rw [View.canon_unit_zero hz]
  unfold k1_pay2 part
  simp only [View.readAt_eq_ld, h3.read_unread, h4.read_unread, h5.read_unread, View.ld_unit_zero (S := S2048x1024) hz,
    View.ld_unit_zero (S := S2048x512) hz, View.ld_unit_zero (S := S1024x512) hz, shapeCast_self]

/-- The first step of a block: the body stores the zero block, reads it back, and adds the step's contribution. -/
theorem out_A (c : Dev nD) (i : grid1.Coords) (a3 : Memref sig .tc .vmem S2048x512 .bf16) (h3 : a3.IsWhole)
    (a4 : Memref sig .tc .vmem S1024x512 .f32) (h4 : a4.IsWhole) (a5 : Memref sig .tc .vmem S2048x1024 .f32) (h5 : a5.IsWhole)
    (hc : cond1_0 i) (x0 : Vec F S2048x512 .bf16) (x1 : Vec F S1024x512 .f32) :
    out1_A_2 c i a3 h3 a4 h4 a5 h5 hc x0 x1 = addf zero (part x0 x1) := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S2048x1024) hz, View.readCov_unit_zero (S := S2048x1024) _ hz]
  unfold k1_pay2 k1_pay1 part
  simp only [View.readAt_eq_ld, h3.read_unread, h4.read_unread, View.ld_unit_zero (S := S2048x1024) hz,
    View.ld_unit_zero (S := S2048x512) hz, View.ld_unit_zero (S := S1024x512) hz, shapeCast_self]

end Cert.KernelIdeal.Down

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.DownIndex.lean ====
/-
  Where a grid point of the down projection reads and writes.

  Point `t` of the 2 x 4 x 28 grid has token block `t / 112`, output-column block `t / 28 % 4` and hidden step `t % 28`.
  Its block of the hidden activation is tokens `2048 (t / 112) + p` by hidden units `512 (t % 28) + k`; its block of the
  down projection is rows `1024 (t / 28 % 4) + r` by the same hidden units; its output block is those tokens by those
  rows. A step's contribution at `(p, r)` is the sum over the step's 512 hidden units of the products.
-/
import proofs.«150833_j17051020165440_2_alg».proof.Proof.DownCases
import proofs.«150833_j17051020165440_2_alg».proof.Proof.LibContractRows
import Idealize.ShloMosaic.Lib.ValueIdx

noncomputable section

open Idealize.ShloMosaic Idealize.ShloMosaic.TcCoe Idealize.SL.Sem
open Idealize.ShloMosaic.Pipeline (Dat)

namespace Cert.KernelIdeal.Down

open Cert.KernelIdeal Cert.KernelIdeal.Gen Idealize.ShloMosaic.ValueIdx

/-- The printed index maps, decided over the grid. -/
theorem idx_facts : ∀ t : Fin cfg1.N,
    win1_0.index t (0 : Fin 2) = t.val / 112 ∧ win1_0.index t (1 : Fin 2) = t.val % 28
    ∧ win1_1.index t (0 : Fin 2) = t.val / 28 % 4 ∧ win1_1.index t (1 : Fin 2) = t.val % 28
    ∧ win1_2.index t (0 : Fin 2) = t.val / 112 ∧ win1_2.index t (1 : Fin 2) = t.val / 28 % 4 :=
  (by decide +kernel : ∀ t : Fin grid1.N, _)

theorem lt224 (t : Fin cfg1.N) : t.val < 224 := lt_of_lt_of_eq t.isLt (show cfg1.N = 224 from N_1)

/-- The token of row `p` of point `t`'s blocks. -/
def tok (t : Fin cfg1.N) (p : Fin 2048) : Fin 4096 := ⟨2048 * (t.val / 112) + p.val, by have := lt224 t; omega⟩
/-- The output column of column `r` of point `t`'s blocks. -/
def col (t : Fin cfg1.N) (r : Fin 1024) : Fin 4096 := ⟨1024 * (t.val / 28 % 4) + r.val, by omega⟩
/-- The hidden unit of column `k` of point `t`'s input blocks. -/
def hun (t : Fin cfg1.N) (k : Fin 512) : Fin 14336 := ⟨512 * (t.val % 28) + k.val, by omega⟩

variable (V : (c : Dev nD) → (b : Ref sig .tc) → Buf (Elt Ideal) ((c : Thread nD τ).loc b))

/-- The hidden activation's block at a point, read at coordinates. -/
theorem iblk_h (c : Dev nD) (t : Fin cfg1.N) (p : Fin 2048) (k : Fin 512) :
    (iblk1 V c 0 t : S2048x512.Idx → EReal) (ix2 p k) = (V c main_v3 : S4096x14336.Idx → EReal) (ix2 (tok t p) (hun t k)) := by
  obtain ⟨e0, e1, -, -, -, -⟩ := idx_facts t
  unfold iblk1
  rw [View.read_apply]
  show V c main_v3 _ = V c main_v3 _
  congr 1
  funext a
  apply Fin.ext
  match a with
  | ⟨0, _⟩ => show win1_0.index t 0 * 2048 + 1 * p.val = 2048 * (t.val / 112) + p.val; rw [e0]; omega
  | ⟨1, _⟩ => show win1_0.index t 1 * 512 + 1 * k.val = 512 * (t.val % 28) + k.val; rw [e1]; omega

/-- The down projection's block at a point, read at coordinates. -/
theorem iblk_w (c : Dev nD) (t : Fin cfg1.N) (r : Fin 1024) (k : Fin 512) :
    (iblk1 V c 1 t : S1024x512.Idx → EReal) (ix2 r k) = (V c main_arg3 : S4096x14336.Idx → EReal) (ix2 (col t r) (hun t k)) := by
  obtain ⟨-, -, e2, e3, -, -⟩ := idx_facts t
  unfold iblk1
  rw [View.read_apply]
  show V c main_arg3 _ = V c main_arg3 _
  congr 1
  funext a
  apply Fin.ext
  match a with
  | ⟨0, _⟩ => show win1_1.index t 0 * 1024 + 1 * r.val = 1024 * (t.val / 28 % 4) + r.val; rw [e2]; omega
  | ⟨1, _⟩ => show win1_1.index t 1 * 512 + 1 * k.val = 512 * (t.val % 28) + k.val; rw [e3]; omega

/-- A step's contribution at an entry: the block of the hidden activation against the block of the down
    projection, summed over the step's hidden units. -/
theorem part_apply (x0 : Vec Ideal S2048x512 .bf16) (x1 : Vec Ideal S1024x512 .f32) (p : Fin 2048) (r : Fin 1024) :
    (part (F := Ideal) x0 x1 : S2048x1024.Idx → EReal) (ix2 p r) = ∑ k : Fin 512, x0 (ix2 p k) * x1 (ix2 r k) := by
  unfold part
  exact Idealize.ShloMosaic.ContractRows.matmul_zero_apply (M := 2048) (K := 512) (N := 1024) none x0
    (truncf .bf16 x1 bitsLt_bf16_f32) p r

end Cert.KernelIdeal.Down

end
-- ==== Proof.DownValue.lean ====
/-
  The down projection's output array: every entry the full sum over the hidden units.

  After step `s` of a block the output block holds, at `(p, r)`, the sum over the first `512 (s + 1)` hidden units of
  the token's hidden activation times the output column's down-projection row: the first step starts from zero, every
  later one adds its 512 terms to what the step before left. After the last step (`s = 27`) this is the sum over all
  14336 hidden units, and that is when the block is written back; the blocks written back tile the array.
-/
import proofs.«150833_j17051020165440_2_alg».proof.Proof.DownIndex
import proofs.«150833_j17051020165440_2_alg».proof.Proof.Spec

noncomputable section

open Idealize.ShloMosaic Idealize.ShloMosaic.TcCoe Idealize.SL.Sem
open Idealize.ShloMosaic.Pipeline (Dat)

namespace Cert.KernelIdeal.Down

open Cert.KernelIdeal Cert.KernelIdeal.Gen Idealize.ShloMosaic.ValueIdx

/-- Term `i` of the sum for token `n` and output column `j`, and zero past the last hidden unit. -/
def term (H Wd : Cert.Spec.Mat 4096 14336) (n j : Fin 4096) (i : ℕ) : EReal :=
  if h : i < 14336 then H (ix2 n ⟨i, h⟩) * Wd (ix2 j ⟨i, h⟩) else 0

/-- The first `512 k` terms and the next 512 are the first `512 (k + 1)`. -/
theorem sum_step (f : ℕ → EReal) (k : ℕ) :
    ∑ i ∈ Finset.range (512 * k), f i + ∑ kk : Fin 512, f (512 * k + kk.val) = ∑ i ∈ Finset.range (512 * (k + 1)), f i := by
  rw [show 512 * (k + 1) = 512 * k + 512 from by ring, Finset.sum_range_add, Finset.sum_range (fun x => f (512 * k + x))]

/-- All 14336 terms are the sum over the hidden units. -/
theorem sum_all (H Wd : Cert.Spec.Mat 4096 14336) (n j : Fin 4096) :
    ∑ i ∈ Finset.range 14336, term H Wd n j i = ∑ i : Fin 14336, H (ix2 n i) * Wd (ix2 j i) := by
  rw [Finset.sum_range]
  refine Finset.sum_congr rfl fun i _ => ?_
  unfold term
  rw [dif_pos i.isLt]

variable (V : (c : Dev nD) → (b : Ref sig .tc) → Buf (Elt Ideal) ((c : Thread nD τ).loc b))

/-- A step's 512 products, as terms of the full sum. -/
theorem part_terms (c : Dev nD) (t : Fin cfg1.N) (p : Fin 2048) (r : Fin 1024) :
    (part (F := Ideal) (iblk1 V c 0 t) (iblk1 V c 1 t) : S2048x1024.Idx → EReal) (ix2 p r)
      = ∑ kk : Fin 512, term (V c main_v3) (V c main_arg3) (tok t p) (col t r) (512 * (t.val % 28) + kk.val) := by
  rw [part_apply]
  refine Finset.sum_congr rfl fun kk _ => ?_
  rw [iblk_h V c t p kk, iblk_w V c t r kk]
  unfold term
  rw [dif_pos (show 512 * (t.val % 28) + kk.val < 14336 from by omega)]
  rfl

/-- THE ACCUMULATION: after point `n` the output block holds the first `512 (n % 28 + 1)` terms. -/
theorem outsAt_eq (c : Dev nD) : ∀ (n : ℕ) (h : n < cfg1.N) (p : Fin 2048) (r : Fin 1024),
    (outsAt1 V c n h : S2048x1024.Idx → EReal) (ix2 p r)
      = ∑ i ∈ Finset.range (512 * (n % 28 + 1)), term (V c main_v3) (V c main_arg3) (tok ⟨n, h⟩ p) (col ⟨n, h⟩ r) i
  | 0, h, p, r => by
    rw [outsAt1_A V c ⟨0, h⟩ rfl, out_A]
    show (zero (F := Ideal) : S2048x1024.Idx → EReal) (ix2 p r) + (part (F := Ideal) _ _ : S2048x1024.Idx → EReal) (ix2 p r) = _
    rw [part_terms V c ⟨0, h⟩ p r]
    show Ideal.ofBits .f32 0x00000000#32 + _ = _
    rw [Ideal.ofBits_zero_f32, zero_add, ← sum_step _ 0]
    simp
  | n + 1, h, p, r => by
    have hN : n + 1 < 224 := lt224 ⟨n + 1, h⟩
    by_cases h0 : (n + 1) % 28 = 0
    · rw [outsAt1_A V c ⟨n + 1, h⟩ h0, out_A]
      show (zero (F := Ideal) : S2048x1024.Idx → EReal) (ix2 p r) + (part (F := Ideal) _ _ : S2048x1024.Idx → EReal) (ix2 p r) = _
      rw [part_terms V c ⟨n + 1, h⟩ p r]
      show Ideal.ofBits .f32 0x00000000#32 + _ = _
      rw [Ideal.ofBits_zero_f32, zero_add, ← sum_step _ ((n + 1) % 28)]
      rw [h0]
      simp
    · rw [outsAt1_B V c ⟨n + 1, h⟩ h0, out_B]
      show (outsAt1 V c n _ : S2048x1024.Idx → EReal) (ix2 p r) + (part (F := Ideal) _ _ : S2048x1024.Idx → EReal) (ix2 p r) = _
      rw [outsAt_eq c n _ p r, part_terms V c ⟨n + 1, h⟩ p r]
      have e1 : tok ⟨n, Nat.lt_of_succ_lt h⟩ p = tok ⟨n + 1, h⟩ p := Fin.ext (by show 2048 * (n / 112) + p.val = 2048 * ((n + 1) / 112) + p.val; omega)
      have e2 : col ⟨n, Nat.lt_of_succ_lt h⟩ r = col ⟨n + 1, h⟩ r := Fin.ext (by show 1024 * (n / 28 % 4) + r.val = 1024 * ((n + 1) / 28 % 4) + r.val; omega)
      have e3 : n % 28 + 1 = (n + 1) % 28 := by omega
      rw [e1, e2, e3]
      exact sum_step _ ((n + 1) % 28)

/-- What a block's last step writes back is the point's block of the full product. -/
theorem flushed_eq (c : Dev nD) (t : Fin cfg1.N) (hf : (cfg1.win 2).flush t = true) :
    (dat1 V c).flushed 2 t = ((cfg1.win 2).blk t).view.read (Elt Ideal) (Cert.Spec.rowsDot (V c main_v3) (V c main_arg3)) := by
  have h27 : t.val % 28 = 27 := (flush1_2 t).mp hf
  obtain ⟨-, -, -, -, e4, e5⟩ := idx_facts t
  show (cfg1.win 2).cut (grid1.coords t) ((dat1 V c).after 2 t) = _
  rw [after1_2]
  funext y
  obtain ⟨p, r, rfl⟩ : ∃ (p : Fin 2048) (r : Fin 1024), y = ix2 p r := ⟨y 0, y 1, eq_ix2 y⟩
  rw [View.read_apply]
  have hemb : ((cfg1.win 2).blk t).view.emb (ix2 p r) = ix2 (tok t p) (col t r) := by
    funext a
    apply Fin.ext
    match a with
    | ⟨0, _⟩ => show win1_2.index t 0 * 2048 + 1 * p.val = 2048 * (t.val / 112) + p.val; rw [e4]; omega
    | ⟨1, _⟩ => show win1_2.index t 1 * 1024 + 1 * r.val = 1024 * (t.val / 28 % 4) + r.val; rw [e5]; omega
  rw [hemb, Cert.Spec.rowsDot_apply, ← sum_all]
  show (outsAt1 V c t.val t.isLt : S2048x1024.Idx → EReal) (ix2 p r) = _
  rw [outsAt_eq V c t.val t.isLt p r, h27]
  rfl

/-- Every entry of the array is in the block some last step writes back. -/
theorem cover (i : S4096x4096.Idx) : ∃ t : Fin cfg1.N, (cfg1.win 2).flush t = true ∧ i ∈ ((cfg1.win 2).blk t).view.set := by
  have h0 : (i 0).val < 4096 := (i 0).isLt
  have h1 : (i 1).val < 4096 := (i 1).isLt
  have hN : cfg1.N = 224 := N_1
  let t : Fin cfg1.N := ⟨((i 0).val / 2048 * 4 + (i 1).val / 1024) * 28 + 27, by rw [hN]; omega⟩
  have ht : t.val = ((i 0).val / 2048 * 4 + (i 1).val / 1024) * 28 + 27 := rfl
  obtain ⟨-, -, -, -, e4, e5⟩ := idx_facts t
  refine ⟨t, (flush1_2 t).mpr (by omega), ?_⟩
  show i ∈ ((View.whole main_v4).slice (win1_2.rect t)).set
  rw [View.set_slice_whole, Rect.mem_set_unit]
  intro a
  match a with
  | ⟨0, _⟩ =>
    show win1_2.index t 0 * 2048 ≤ (i 0).val ∧ (i 0).val < win1_2.index t 0 * 2048 + 2048
    rw [e4]; omega
  | ⟨1, _⟩ =>
    show win1_2.index t 1 * 1024 ≤ (i 1).val ∧ (i 1).val < win1_2.index t 1 * 1024 + 1024
    rw [e5]; omega

/-- THE REGION'S RESULT: its output array after the last point is the hidden activation against the down projection,
    rows against rows. -/
theorem arrAt_rowsDot (c : Dev nD) :
    (dat1 (F := Ideal) V c).arrAt 2 cfg1.N = Cert.Spec.rowsDot (V c main_v3) (V c main_arg3) :=
  (dat1 V c).arrAt_eq_of_cover 2 (Cert.Spec.rowsDot (V c main_v3) (V c main_arg3)) (flushed_eq V c) cover

end Cert.KernelIdeal.Down

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.GateUpPay.lean ====
/-
  The gate/up block at an entry.

  One grid step of the first region holds a block of 256 tokens (rows of 4096 features), the 512 rows of the gate
  matrix and of the up matrix that belong to its block of hidden units, and the 256 routing weights of its tokens as a
  column. On the extended reals the changes of number format are the identity, the two matrix products into a zero
  accumulator are plain sums of products of a token row against a matrix row, and the rest is entrywise: entry
  `(p, q)` of what the step stores is `silu g · u · w p` with `g`, `u` the two sums for token `p` and hidden unit `q`.
-/
import proofs.«150833_j17051020165440_2_alg».proof.Proof.Gen.KernelIdeal.Skeleton
import proofs.«150833_j17051020165440_2_alg».proof.Proof.Spec
import proofs.«150833_j17051020165440_2_alg».proof.Proof.LibContractRows
import proofs.«150833_j17051020165440_2_alg».proof.Proof.LibKeepdims
import Idealize.ShloMosaic.Lib.Pipeline.Value

noncomputable section

namespace Cert.KernelIdeal.GateUp

open Cert.KernelIdeal Cert.KernelIdeal.Gen Idealize.ShloMosaic Idealize.ShloMosaic.ValueIdx

/-- The products' dimension numbers: both operands contracted over their last axis, no batch axis. -/
theorem dot_eq : dot_S256x4096_S512x4096_S256x512_1_1_0_0_n_n = DotDims.transposedRhs 256 4096 512 := rfl

/-- A token block against the rows of a projection block, into the zero accumulator: the sum over the features. -/
theorem rows_apply (x0 : Vec Ideal S256x4096 .bf16) (r : Vec Ideal S512x4096 .f32) (p : Fin 256) (q : Fin 512) :
    matmul dot_S256x4096_S512x4096_S256x512_1_1_0_0_n_n none
        (shapeCast S256x4096 x0 shapeCasts_S256x4096_S256x4096 : FVec Ideal S256x4096 .bf16)
        (truncf .bf16 r bitsLt_bf16_f32 : FVec Ideal S512x4096 .bf16)
        (constant S256x512 .f32 0x00000000#32) (ix2 p q)
      = ∑ k : Fin 4096, x0 (ix2 p k) * r (ix2 q k) := by
  rw [shapeCast_self, dot_eq]
  exact ContractRows.matmul_zero_apply none x0 (truncf .bf16 r bitsLt_bf16_f32) p q

/-- THE BLOCK AT AN ENTRY: `silu g · u` scaled by the token's routing weight. -/
theorem pay_apply (x0 : Vec Ideal S256x4096 .bf16) (x1 x2 : Vec Ideal S512x4096 .f32) (x3 : Vec Ideal S256x1 .f32)
    (p : Fin 256) (q : Fin 512) :
    k0_pay1 x0 x1 x2 x3 (ix2 p q)
      = (Cert.Spec.silu (∑ k : Fin 4096, x0 (ix2 p k) * x1 (ix2 q k)) * (∑ k : Fin 4096, x0 (ix2 p k) * x2 (ix2 q k)))
          * x3 (ix2 p (0 : Fin 1)) := by
  unfold k0_pay1
  rw [truncf_apply, mulf_apply, mulf_apply, mulf_apply]
  show _ * Ideal.logistic (matmul dot_S256x4096_S512x4096_S256x512_1_1_0_0_n_n none
      (shapeCast S256x4096 x0 shapeCasts_S256x4096_S256x4096 : FVec Ideal S256x4096 .bf16)
      (truncf .bf16 x1 bitsLt_bf16_f32 : FVec Ideal S512x4096 .bf16) (constant S256x512 .f32 0x00000000#32) (ix2 p q)) * _ * _ = _
  rw [rows_apply x0 x1 p q, rows_apply x0 x2 p q, shapeCast_self x3,
    Cert.Keepdims.broadcastTo_a1_ab_apply x3 broadcasts_S256x1_S256x512 p q]
  rfl

end Cert.KernelIdeal.GateUp

end
-- ==== Proof.GateUpIdx.lean ====
/-
  Where the first region's blocks sit.

  The grid of the gate/up region is 28 × 16: its first coordinate names a block of 512 hidden units, its second a block
  of 256 tokens, and the points run row-major, so point `t` has coordinates `(t / 16, t % 16)`. The token block and the
  weight column move with the second coordinate, the two projection matrices with the first, and the output block sits
  at (token block, hidden block). Decided once over the 448 points.
-/
import proofs.«150833_j17051020165440_2_alg».proof.Proof.Gen.KernelIdeal.Points

namespace Cert.KernelIdeal.GateUp

open Cert.KernelIdeal Cert.KernelIdeal.Gen Idealize.ShloMosaic

/-- The block indices of the five windows at point `t`. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val % 16 ∧ win0_4.index t (1 : Fin 2) = t.val / 16 :=
  (by decide +kernel : ∀ t : Fin grid0.N, _)

/-- The grid has 448 points. -/
theorem N_eq : cfg0.N = 448 := by decide

end Cert.KernelIdeal.GateUp
-- ==== Proof.GateUpBlock.lean ====
/-
  One grid step of the first region writes a block of the weighted hidden activation.

  At point `t` (token block `t % 16`, hidden block `t / 16`) the step's four inputs are blocks of the whole arrays: 256
  token rows from row `256 (t % 16)`, 512 rows of each projection matrix from row `512 (t / 16)`, and the 256 weights of
  those tokens. An element of a block sits in its array, on each axis, at the block index times the block's extent plus
  its own coordinate. So entry `(p, q)` of what the step stores is entry `(256 (t % 16) + p, 512 (t / 16) + q)` of the
  weighted hidden activation `silu (X Wgᵀ) · (X Wuᵀ) · w` of the whole arrays, which is where the write-back puts it.
-/
import proofs.«150833_j17051020165440_2_alg».proof.Proof.Gen.KernelIdeal.Frame
import proofs.«150833_j17051020165440_2_alg».proof.Proof.GateUpPay
import proofs.«150833_j17051020165440_2_alg».proof.Proof.GateUpIdx
import Idealize.ShloMosaic.Lib.Pipeline.Value

noncomputable section

namespace Cert.KernelIdeal.GateUp

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The block's entry from the whole arrays' rows: when the step's token rows, projection rows and weights are rows
    `n`, `i` of the whole arrays, its entry `(p, q)` is entry `(n, i)` of the weighted hidden activation. -/
theorem point_eq (X : Cert.Spec.Mat 4096 4096) (Wg Wu : Cert.Spec.Mat 14336 4096) (w : (⟨2, ![4096, 1]⟩ : Shape).Idx → EReal)
    (x0 : Vec Ideal S256x4096 .bf16) (x1 x2 : Vec Ideal S512x4096 .f32) (x3 : Vec Ideal S256x1 .f32)
    (p : Fin 256) (q : Fin 512) (n : Fin 4096) (i : Fin 14336)
    (h0 : ∀ k : Fin 4096, x0 (ix2 p k) = X (ix2 n k))
    (h1 : ∀ k : Fin 4096, x1 (ix2 q k) = Wg (ix2 i k))
    (h2 : ∀ k : Fin 4096, x2 (ix2 q k) = Wu (ix2 i k))
    (h3 : x3 (ix2 p (0 : Fin 1)) = w (ix2 n (0 : Fin 1))) :
    k0_pay1 x0 x1 x2 x3 (ix2 p q) = Cert.Spec.hiddenW X Wg Wu w (ix2 n i) := by
  rw [pay_apply, Cert.Spec.hiddenW_apply, h3]
  unfold Cert.Spec.hid Cert.Spec.proj
  simp only [h0, h1, h2]

variable (V : (c : Dev nD) → (b : Ref sig .tc) → Buf (Elt Ideal) ((c : Thread nD τ).loc b))

/-- The token block at point `t`: rows `256 (t % 16) …` of the tokens. -/
theorem blk0_apply (c : Dev nD) (t : Fin cfg0.N) (p : Fin 256) (k : Fin 4096) (n : Fin 4096)
    (hn : n.val = t.val % 16 * 256 + p.val) :
    (iblk0 V c 0 t : Vec Ideal S256x4096 .bf16) (ix2 p k) = (V c main_v1 : S4096x4096.Idx → EReal) (ix2 n k) := by
  obtain ⟨e0, e1, -⟩ := idx_facts t
  unfold iblk0
  rw [View.read_apply]
  show V c main_v1 (((cfg0.win 0).blk t).view.emb (ix2 p k)) = V c main_v1 (ix2 n k)
  refine congrArg (V c main_v1) (funext fun a => Fin.ext ?_)
  match a with
  | ⟨0, _⟩ => show win0_0.index t (0 : Fin 2) * 256 + 1 * p.val = n.val; rw [e0, hn]; omega
  | ⟨1, _⟩ => show win0_0.index t (1 : Fin 2) * 4096 + 1 * k.val = k.val; rw [e1]; omega

/-- A projection block at point `t`: rows `512 (t / 16) …` of the gate matrix. -/
theorem blk1_apply (c : Dev nD) (t : Fin cfg0.N) (q : Fin 512) (k : Fin 4096) (i : Fin 14336)
    (hi : i.val = t.val / 16 * 512 + q.val) :
    (iblk0 V c 1 t : Vec Ideal S512x4096 .f32) (ix2 q k) = (V c main_arg1 : S14336x4096.Idx → EReal) (ix2 i k) := by
  obtain ⟨-, -, e0, e1, -⟩ := idx_facts t
  unfold iblk0
  rw [View.read_apply]
  show V c main_arg1 (((cfg0.win 1).blk t).view.emb (ix2 q k)) = V c main_arg1 (ix2 i k)
  refine congrArg (V c main_arg1) (funext fun a => Fin.ext ?_)
  match a with
  | ⟨0, _⟩ => show win0_1.index t (0 : Fin 2) * 512 + 1 * q.val = i.val; rw [e0, hi]; omega
  | ⟨1, _⟩ => show win0_1.index t (1 : Fin 2) * 4096 + 1 * k.val = k.val; rw [e1]; omega

/-- and of the up matrix. -/
theorem blk2_apply (c : Dev nD) (t : Fin cfg0.N) (q : Fin 512) (k : Fin 4096) (i : Fin 14336)
    (hi : i.val = t.val / 16 * 512 + q.val) :
    (iblk0 V c 2 t : Vec Ideal S512x4096 .f32) (ix2 q k) = (V c main_arg2 : S14336x4096.Idx → EReal) (ix2 i k) := by
  obtain ⟨-, -, -, -, e0, e1, -⟩ := idx_facts t
  unfold iblk0
  rw [View.read_apply]
  show V c main_arg2 (((cfg0.win 2).blk t).view.emb (ix2 q k)) = V c main_arg2 (ix2 i k)
  refine congrArg (V c main_arg2) (funext fun a => Fin.ext ?_)
  match a with
  | ⟨0, _⟩ => show win0_2.index t (0 : Fin 2) * 512 + 1 * q.val = i.val; rw [e0, hi]; omega
  | ⟨1, _⟩ => show win0_2.index t (1 : Fin 2) * 4096 + 1 * k.val = k.val; rw [e1]; omega

/-- The weights at point `t`: entries `256 (t % 16) …` of the weight column. -/
theorem blk3_apply (c : Dev nD) (t : Fin cfg0.N) (p : Fin 256) (n : Fin 4096)
    (hn : n.val = t.val % 16 * 256 + p.val) :
    (iblk0 V c 3 t : Vec Ideal S256x1 .f32) (ix2 p (0 : Fin 1)) = (V c main_v2 : S4096x1.Idx → EReal) (ix2 n (0 : Fin 1)) := by
  obtain ⟨-, -, -, -, -, -, e0, e1, -⟩ := idx_facts t
  unfold iblk0
  rw [View.read_apply]
  show V c main_v2 (((cfg0.win 3).blk t).view.emb (ix2 p (0 : Fin 1))) = V c main_v2 (ix2 n (0 : Fin 1))
  refine congrArg (V c main_v2) (funext fun a => Fin.ext ?_)
  match a with
  | ⟨0, _⟩ => show win0_3.index t (0 : Fin 2) * 256 + 1 * p.val = n.val; rw [e0, hn]; omega
  | ⟨1, _⟩ => show win0_3.index t (1 : Fin 2) * 1 + 1 * 0 = 0; rw [e1]

/-- WHAT POINT `t` WRITES BACK is its block of the weighted hidden activation of the arrays as the region finds them. -/
theorem flushed_eq (c : Dev nD) (t : Fin cfg0.N) :
    (dat0 (F := Ideal) V c).flushed 4 t
      = ((cfg0.win 4).blk t).view.read (Elt Ideal)
          (Cert.Spec.hiddenW (V c main_v1) (V c main_arg1) (V c main_arg2) (V c main_v2)) := by
  show (cfg0.win 4).cut (grid0.coords t) ((dat0 V c).after 4 t) = _
  rw [after0_4]
  unfold out0_4
  rw [View.canon_unit_zero hz]
  simp only [View.ld_unit_zero (S := S256x4096) hz, View.ld_unit_zero (S := S512x4096) hz, View.ld_unit_zero (S := S256x1) hz]
  funext j
  rw [View.read_apply]
  have hj0 : (j 0).val < 256 := (j 0).isLt
  have hj1 : (j 1).val < 512 := (j 1).isLt
  have hN : t.val < 448 := lt_of_lt_of_eq t.isLt N_eq
  obtain ⟨-, -, -, -, -, -, -, -, e0, e1⟩ := idx_facts t
  have ej : (win0 4).xinj (grid0.coords t) j = ix2 (⟨(j 0).val, hj0⟩ : Fin 256) (⟨(j 1).val, hj1⟩ : Fin 512) :=
    funext fun a => by
      match a with
      | ⟨0, _⟩ => rfl
      | ⟨1, _⟩ => rfl
  have ei : ((View.whole main_v3).slice ((win0 4).rect t)).emb j
      = ix2 (⟨t.val % 16 * 256 + (j 0).val, by omega⟩ : Fin 4096) (⟨t.val / 16 * 512 + (j 1).val, by omega⟩ : Fin 14336) :=
    funext fun a => Fin.ext (by
      match a with
      | ⟨0, _⟩ => show win0_4.index t (0 : Fin 2) * 256 + 1 * (j 0).val = t.val % 16 * 256 + (j 0).val; rw [e0]; omega
      | ⟨1, _⟩ => show win0_4.index t (1 : Fin 2) * 512 + 1 * (j 1).val = t.val / 16 * 512 + (j 1).val; rw [e1]; omega)
  show k0_pay1 (iblk0 V c 0 t) (iblk0 V c 1 t) (iblk0 V c 2 t) (iblk0 V c 3 t) ((win0 4).xinj (grid0.coords t) j)
    = Cert.Spec.hiddenW (V c main_v1) (V c main_arg1) (V c main_arg2) (V c main_v2)
        (((View.whole main_v3).slice ((win0 4).rect t)).emb j)
  rw [ej, ei]
  exact point_eq (V c main_v1) (V c main_arg1) (V c main_arg2) (V c main_v2)
    (iblk0 V c 0 t) (iblk0 V c 1 t) (iblk0 V c 2 t) (iblk0 V c 3 t) _ _ _ _
    (fun k => blk0_apply V c t _ k _ rfl) (fun k => blk1_apply V c t _ k _ rfl) (fun k => blk2_apply V c t _ k _ rfl)
    (blk3_apply V c t _ _ rfl)

end Cert.KernelIdeal.GateUp

end
-- ==== Proof.GateUp.lean ====
/-
  The first region's output array after the run: the weighted hidden activation.

  The output's blocks are 256 × 512 and the grid's 448 points fill the 16 × 28 blocks of the `[4096, 14336]` array:
  entry `(n, i)` lies in the block of the point with hidden block `i / 512` and token block `n / 256`, which is point
  `16 (i / 512) + n / 256`. Every point writes its block back, and what it writes is that block of the weighted hidden
  activation; so the array ends holding it.
-/
import proofs.«150833_j17051020165440_2_alg».proof.Proof.GateUpBlock

noncomputable section

namespace Cert.KernelIdeal.GateUp

open Cert.KernelIdeal Cert.KernelIdeal.Gen Idealize.ShloMosaic Idealize.ShloMosaic.TcCoe Idealize.SL.Sem
open Idealize.ShloMosaic.ValueIdx
open Idealize.ShloMosaic.Pipeline (Dat)

/-- An entry of the array is in point `t`'s block iff each coordinate is in the block's range on its axis. -/
theorem mem_blk (t : Fin cfg0.N) (i : S4096x14336.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v3).slice (win0_4.rect t)).set ↔ _
  rw [View.set_slice_whole, Rect.mem_set_unit]
  exact Iff.rfl

/-- Every entry is in the block of a point that writes back. -/
theorem cover (i : S4096x14336.Idx) :
    ∃ t : Fin cfg0.N, (cfg0.win 4).flush t = true ∧ i ∈ ((cfg0.win 4).blk t).view.set := by
  have hi0 : (i 0).val < 4096 := (i 0).isLt
  have hi1 : (i 1).val < 14336 := (i 1).isLt
  obtain ⟨t, ht⟩ : ∃ t : Fin cfg0.N, t.val = (i 1).val / 512 * 16 + (i 0).val / 256 :=
    ⟨⟨(i 1).val / 512 * 16 + (i 0).val / 256, by rw [N_eq]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 512 ≤ (i 1).val ∧ (i 1).val < win0_4.index t (1 : Fin 2) * 512 + 512
    rw [e1, ht]; omega

/-- THE ARRAY AFTER THE REGION: the hidden activation `silu (X Wgᵀ) · (X Wuᵀ)`, each token's row scaled by its weight, of
    the arrays as the region finds them. -/
theorem arrAt_hidden (V : (c : Dev nD) → (b : Ref sig .tc) → Buf (Elt Ideal) ((c : Thread nD τ).loc b)) (c : Dev nD) :
    (dat0 (F := Ideal) V c).arrAt 4 cfg0.N
      = Cert.Spec.hiddenW (V c main_v1) (V c main_arg1) (V c main_arg2) (V c main_v2) :=
  (dat0 (F := Ideal) V c).arrAt_eq_of_cover 4
    (Cert.Spec.hiddenW (V c main_v1) (V c main_arg1) (V c main_arg2) (V c main_v2))
    (fun t _ => flushed_eq V c t) cover

end Cert.KernelIdeal.GateUp

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Algebra.lean ====
/-
  For real entries the weight of a token is a common factor of every term of the sum over the hidden units, so it
  may be applied to the hidden activation before the last product or to the product afterwards.

  The products and the logistic function of real numbers are real numbers, so the hidden activation of a real token
  against real matrices is a real number; both results are then inclusions of real sums, and over the reals the
  identity is `∑ (a·w)·d = (∑ a·d)·w`.
-/
import proofs.«150833_j17051020165440_2_alg».proof.Proof.Spec
import proofs.«150833_j17051020165440_2_alg».proof.Proof.LibFinite

namespace Cert.Domain

open Idealize.ShloMosaic Idealize.ShloMosaic.ValueIdx Cert.Spec

/-- A real token against a real row is a real number. -/
theorem proj_real (X : Mat 4096 4096) (W : Mat 14336 4096) (hX : Real' X) (hW : Real' W)
    (n : Fin 4096) (i : Fin 14336) : ∃ r : ℝ, proj X W n i = (r : EReal) := by
  choose a ha using hX
  choose b hb using hW
  refine ⟨∑ h : Fin 4096, a (ix2 n h) * b (ix2 i h), ?_⟩
  unfold proj
  rw [Cert.LibFinite.coe_sum]
  refine Finset.sum_congr rfl fun h _ => ?_
  rw [ha, hb, EReal.coe_mul]

/-- `silu` of a real number is a real number. -/
theorem silu_real (r : ℝ) : ∃ s : ℝ, silu (r : EReal) = (s : EReal) :=
  ⟨r * (1 + Real.exp (-r))⁻¹, by rw [silu, Ideal.logistic_coe, EReal.coe_mul]⟩

/-- The hidden activation of a real token against real matrices is a real number. -/
theorem hid_real (X : Mat 4096 4096) (Wg Wu : Mat 14336 4096) (hX : Real' X) (hg : Real' Wg) (hu : Real' Wu)
    (n : Fin 4096) (i : Fin 14336) : ∃ r : ℝ, hid X Wg Wu n i = (r : EReal) := by
  obtain ⟨g, hg'⟩ := proj_real X Wg hX hg n i
  obtain ⟨u, hu'⟩ := proj_real X Wu hX hu n i
  obtain ⟨s, hs⟩ := silu_real g
  exact ⟨s * u, by rw [hid, hg', hu', hs, EReal.coe_mul]⟩

/-- For real entries the weight moves out of the sum over the hidden units. -/
theorem inside_eq_outside (X : Mat 4096 4096) (Wg Wu : Mat 14336 4096) (Wd : Mat 4096 14336) (w : Fin 4096 → EReal)
    (hX : Real' X) (hg : Real' Wg) (hu : Real' Wu) (hd : Real' Wd) (hw : ∀ n, ∃ r : ℝ, w n = (r : EReal))
    (n j : Fin 4096) :
    outInside X Wg Wu Wd w n j = outOutside X Wg Wu Wd w n j := by
  choose a ha using fun i => hid_real X Wg Wu hX hg hu n i
  choose d hd' using hd
  obtain ⟨c, hc⟩ := hw n
  have hin : outInside X Wg Wu Wd w n j = ((∑ i : Fin 14336, (a i * c) * d (ix2 j i) : ℝ) : EReal) := by
    unfold outInside
    rw [Cert.LibFinite.coe_sum]
    refine Finset.sum_congr rfl fun i _ => ?_
    rw [ha, hc, hd', EReal.coe_mul, EReal.coe_mul]
  have hout : outOutside X Wg Wu Wd w n j = (((∑ i : Fin 14336, a i * d (ix2 j i)) * c : ℝ) : EReal) := by
    unfold outOutside
    rw [EReal.coe_mul, Cert.LibFinite.coe_sum, hc]
    refine congrArg (fun s : EReal => s * (c : EReal)) ?_
    refine Finset.sum_congr rfl fun i _ => ?_
    rw [ha, hd', EReal.coe_mul]
  rw [hin, hout, Finset.sum_mul]
  refine congrArg (fun s : ℝ => (s : EReal)) ?_
  refine Finset.sum_congr rfl fun i _ => ?_
  ring

end Cert.Domain
-- ==== Proof.Domain.lean ====
/-
  The stated domain, read back from the printed precondition.

  The precondition is a conjunction of seven `jnp.all` tests: for each of the five float arrays, that the absolute
  value of every entry compares below `+∞`; for the integers, that every one is at least `0` and below `16384`, read
  signed. A conjunction of one-bit words is `1` only when every word is; an `and`-reduction into one word is `1` only
  when every element is; an absolute value below `+∞` excludes both infinities, and what is left of the extended reals
  is the reals; the signed comparisons are comparisons of the integers the words denote.
-/
import proofs.«150833_j17051020165440_2_alg».proof.Pre_finite_inputs
import proofs.«150833_j17051020165440_2_alg».proof.Proof.Gen.Pre_finite_inputs
import Idealize.ShloMosaic.Lib.ReduceAll
import Idealize.ShloMosaic.Lib.IdealHost
import proofs.«150833_j17051020165440_2_alg».proof.Proof.LibFinite
import proofs.«150833_j17051020165440_2_alg».proof.Proof.Spec

namespace Cert.Domain

open Idealize.ShloMosaic Idealize.ShloMosaic.ValueIdx Cert.Spec

/-- The shape of a scalar has one index. -/
instance : Subsingleton S_.Idx := ⟨fun a b => funext fun d => d.elim0⟩

/-- An extended real that is neither infinity is a real number. -/
theorem real_of_ne (x : EReal) (h : x ≠ ⊤ ∧ x ≠ ⊥) : ∃ r : ℝ, x = (r : EReal) := by
  induction x using EReal.rec with
  | bot => exact absurd rfl h.2
  | top => exact absurd rfl h.1
  | coe r => exact ⟨r, rfl⟩

/-- An array whose `|·| < +∞` test is `1` at every entry holds real numbers only. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ix0 = 1#1) : Real' a := by
  intro i
  have e := Host.reduce_andi_all _ _ hr hu ix0 h i
  rw [cmpf_apply, broadcastInDim_scalar_apply, constant_apply] at e
  exact real_of_ne _ (Cert.LibFinite.finite_of_abs_lt (a i) e)

/-- The precondition, decoded: every float entry is a real number and every integer is a row of the table. -/
theorem of_pre (x : FVec Ideal S16384x4096 .f32) (wg wu : FVec Ideal S14336x4096 .f32)
    (wd : FVec Ideal S4096x14336 .f32) (tx : IVec S4096 32) (w : FVec Ideal S4096 .f32)
    (h : Cert.Pre_finite_inputs.fn (F := Ideal) x wg wu wd tx w = fun _ => 1#1) :
    Real' x ∧ Real' wg ∧ Real' wu ∧ Real' wd ∧ Real' w ∧ InTable tx := by
  have e := congrFun h ix0
  dsimp only [Cert.Pre_finite_inputs.fn, Cert.Pre_finite_inputs.fn_part1] at e
  -- the seven tests, the last outermost
  obtain ⟨e, h7⟩ := IntOp.andi_eq_one.1 (show IntOp.andi _ _ = 1#1 from e)
  obtain ⟨e, h6⟩ := IntOp.andi_eq_one.1 (show IntOp.andi _ _ = 1#1 from e)
  obtain ⟨e, h5⟩ := IntOp.andi_eq_one.1 (show IntOp.andi _ _ = 1#1 from e)
  obtain ⟨e, h4⟩ := IntOp.andi_eq_one.1 (show IntOp.andi _ _ = 1#1 from e)
  obtain ⟨e, h3⟩ := IntOp.andi_eq_one.1 (show IntOp.andi _ _ = 1#1 from e)
  obtain ⟨h1, h2⟩ := IntOp.andi_eq_one.1 (show IntOp.andi _ _ = 1#1 from e)
  refine ⟨real_of_all x _ _ _ h1, real_of_all wg _ _ _ h2, real_of_all wu _ _ _ h3, real_of_all wd _ _ _ h4,
    real_of_all w _ _ _ h5, fun n => ?_⟩
  have a6 := Host.reduce_andi_all _ _ _ _ ix0 h6 (ix1 n)
  have a7 := Host.reduce_andi_all _ _ _ _ ix0 h7 (ix1 n)
  -- at an entry the constants are the words 0 and 16384, and the comparisons read the words signed
  have b6 := IntOp.cmpi_sge.1 (show IntOp.cmpi .sge (tx (ix1 n)) 0#32 = 1#1 from a6)
  have b7 := IntOp.cmpi_slt.1 (show IntOp.cmpi .slt (tx (ix1 n)) 16384#32 = 1#1 from a7)
  rw [show (0#32 : BitVec 32).toInt = 0 from by decide] at b6
  rw [show (16384#32 : BitVec 32).toInt = 16384 from by decide] at b7
  exact ⟨b6, b7⟩

end Cert.Domain
-- ==== Proof.LibGatherRows.lean ====
/-
  Rows of a matrix gathered through a column of integers, read at an entry.

  `x[idx]` for a matrix `x : [N, K]` and a column of signed integers `idx : [E, 1]` is a gather of whole rows: the
  operand's axis 0 is collapsed and indexed with one-element slices, its axis 1 is taken whole (slice size `K`) and
  becomes the result's offset axis 1. Entry `(e, j)` of the result is `x` at row `idx[e, 0]`, read as a signed integer
  and clamped into `[0, N − 1]`, and column `j`: on axis 1 nothing is indexed, so the start is `0` and the offset
  coordinate is `j`.
-/
import Idealize.ShloMosaic.Lib.ValueIdx
import Idealize.ShloMosaic.PureOps.ShapeOps

namespace Cert.Lib.GatherRows

open Idealize.ShloMosaic Idealize.ShloMosaic.ValueIdx

variable {α : Type}

/-- The dimension numbers of `x[idx]` for `x : [N, K]`, `idx : [E, 1]`, result `[E, K]`: the operand's axis 0
    collapsed and indexed with one-element slices, its axis 1 whole and the result's offset axis, the index vector along
    axis 1. -/
abbrev rowGatherDims (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry `(e, j)` of the gather is the operand at row `idx[e, 0]`, read signed and clamped into `[0, N − 1]`, and
    column `j`. -/
theorem gather_rows_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (rowGatherDims N K E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    -- the indexed axis: no batching, collapsed (so no offset), the start is the clamped entry of the column
    show (rowGatherDims N K E wf).start (ix2 e j) idx 0 + (rowGatherDims N K E wf).batchCoord (ix2 e j) 0
      + (rowGatherDims N K E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K E wf).startIndexMap from List.mem_singleton.mpr rfl)]
    have hsi : (rowGatherDims N K E wf).siIdx (ix2 e j) ⟨List.idxOf (0 : Fin 2) (rowGatherDims N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the whole axis: not indexed (start 0), no batching, the offset coordinate is the result's column
    show (rowGatherDims N K E wf).start (ix2 e j) idx 1 + (rowGatherDims N K E wf).batchCoord (ix2 e j) 1
      + (rowGatherDims N K E wf).offCoord (ix2 e j) 1 = j.val
    have hstart : (rowGatherDims N K E wf).start (ix2 e j) idx 1 = 0 := by
      unfold GatherDims.start
      have hmem : (1 : Fin 2) ∉ (rowGatherDims N K E wf).startIndexMap := by
        show (1 : Fin 2) ∉ ([0] : List (Fin 2)); decide
      rw [dif_neg hmem]
    have hoff : (rowGatherDims N K E wf).offCoord (ix2 e j) 1 = j.val := by
      unfold GatherDims.offCoord
      have hne : (1 : Fin 2) ∉ (rowGatherDims N K E wf).collapsedSliceDims := by
        show (1 : Fin 2) ∉ ([0] : List (Fin 2)); decide
      have hmem : (1 : Fin 2) ∈ (rowGatherDims N K E wf).sKept :=
        (GatherDims.mem_sKept _ _).mpr ⟨hne, List.not_mem_nil⟩
      rw [dif_pos hmem]
      rfl
    rw [hstart, GatherDims.batchCoord_eq_zero _ _ _ List.not_mem_nil, hoff]
    omega

/-- Dimension numbers with offset axis `[1]`, collapsed axis `[0]`, no batching axes, index map `[0]`, the index vector
    along axis 1 and slice sizes `[1, K]` are the row gather's. -/
theorem eq_rowGatherDims {N K E : Nat} (d : GatherDims ⟨2, ![N, K]⟩ ⟨2, ![E, 1]⟩ ⟨2, ![E, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, K]) :
    ∃ wf : GatherDims.WF ⟨2, ![N, K]⟩ ⟨2, ![E, 1]⟩ ⟨2, ![E, K]⟩ [1] [0] [] [0] [] 1 ![1, K],
      d = rowGatherDims N K E wf := by
  obtain ⟨od, cd, ob, sb, sm, iv, ss, wf⟩ := d
  dsimp only at h1 h2 h3 h4 h5 h6 h7
  subst h1 h2 h3 h4 h5 h6 h7
  exact ⟨wf, rfl⟩

end Cert.Lib.GatherRows
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.TakeReal.lean ====
/-
  Under the stated domain every entry of the selected tokens is a real number.

  An integer that is not below zero is left as it is by the wrap-around; laid as a column it is tested `0 ≤ · ≤ 16383`,
  and the `and` over the column's one-element axis of tests that all hold is `1`: the mask is `1` everywhere, so
  the selection takes the gathered entry, which is an entry of the table and so a real number.
-/
import Idealize.ShloMosaic.PureOps.Reduce
import Idealize.ShloMosaic.Lib.Affine
import Idealize.ShloMosaic.Lib.Pipeline.Value
import proofs.«150833_j17051020165440_2_alg».proof.Proof.Spec
import proofs.«150833_j17051020165440_2_alg».proof.Proof.LibGatherRows
import proofs.«150833_j17051020165440_2_alg».proof.Proof.LibColumnInDim

namespace Cert.Domain

open Idealize.ShloMosaic Idealize.ShloMosaic.ValueIdx Cert.Spec

/-- A left fold by `and` from `1` over one-bit words that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- An `and`-reduction from `1` of an array of ones is `1` at every result index. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun n _ => hx n

/-- An integer that is not below zero is its own wrap-around. -/
theorem wrapIdx_apply (tx : IVec S4096 32) (n : Fin 4096) (h0 : 0 ≤ (tx (ix1 n)).toInt) :
    wrapIdx takeFacts tx (ix1 n) = tx (ix1 n) := by
  unfold wrapIdx
  rw [select_apply]
  have hc : cmpi .slt tx (broadcastInDim S4096 ![] takeFacts.b_S_S4096 (constantI S_ 32 0#32)) (ix1 n) = 0#1 := by
    refine eq_zero_of_ne_one fun hc => ?_
    have hlt := IntOp.cmpi_slt.1 (show IntOp.cmpi .slt (tx (ix1 n)) 0#32 = 1#1 from hc)
    rw [show (0#32 : BitVec 32).toInt = 0 from by decide] at hlt
    omega
  rw [hc, select_zero]

/-- The column of wrapped integers holds, at row `n`, the integer of token `n` when that is not below zero. -/
theorem idxCol_apply (tx : IVec S4096 32) (n : Fin 4096) (u : Fin 1) (h0 : 0 ≤ (tx (ix1 n)).toInt) :
    idxCol takeFacts tx (ix2 n u) = tx (ix1 n) := by
  unfold idxCol
  rw [Cert.Lib.ColumnInDim.column_apply (by decide) _ _ n u, wrapIdx_apply tx n h0]

/-- Every token's integer is a row of the table: the test is `1` at every token. -/
theorem inTable_apply (tx : IVec S4096 32) (ht : InTable tx) (n : Fin 4096) : inTable takeFacts tx (ix1 n) = 1#1 := by
  unfold inTable
  refine reduce_andi_one _ _ _ _ _ rfl fun i => ?_
  obtain ⟨p, u, rfl⟩ : ∃ (p : Fin 4096) (u : Fin 1), i = ix2 p u := ⟨i 0, i 1, eq_ix2 i⟩
  show IntOp.andi (IntOp.cmpi .sge (idxCol takeFacts tx (ix2 p u)) 0#32)
    (IntOp.cmpi .sle (idxCol takeFacts tx (ix2 p u)) 16383#32) = 1#1
  rw [idxCol_apply tx p u (ht p).1]
  refine IntOp.andi_eq_one.2 ⟨IntOp.cmpi_sge.2 ?_, IntOp.cmpi_sle.2 ?_⟩
  · rw [show (0#32 : BitVec 32).toInt = 0 from by decide]
    exact (ht p).1
  · rw [show (16383#32 : BitVec 32).toInt = 16383 from by decide]
    have := (ht p).2
    omega

/-- Under the stated domain every entry of the selected tokens is a real number: an entry of the table. -/
theorem takeRows_real (x : FVec Ideal S16384x4096 .f32) (tx : IVec S4096 32) (hx : Real' x) (ht : InTable tx) :
    Real' (takeRows takeFacts x tx) := by
  intro i
  obtain ⟨n, k, rfl⟩ : ∃ (n : Fin 4096) (k : Fin 4096), i = ix2 n k := ⟨i 0, i 1, eq_ix2 i⟩
  -- the mask, a vector spread along the rows, is 1 at (n, k)
  have hm : broadcastInDim S4096x4096 ![0] takeFacts.b_S4096_S4096x4096_0 (inTable takeFacts tx) (ix2 n k) = 1#1 := by
    rw [broadcastInDim_apply _ takeFacts.b_S4096_S4096x4096_0 (inTable takeFacts tx) (ix2 n k) (ix1 n)
      (fun a => match a with
        | ⟨0, _⟩ => by
          show n.val = if (4096 : ℕ) = 1 then 0 else n.val
          rw [if_neg (by decide : ¬(4096 : ℕ) = 1)])]
    exact inTable_apply tx ht n
  unfold takeRows
  rw [select_apply, hm, select_one,
    show rowsDims takeFacts = Cert.Lib.GatherRows.rowGatherDims 16384 4096 4096 takeFacts.gwf from rfl,
    Cert.Lib.GatherRows.gather_rows_apply (by decide) takeFacts.gwf x (idxCol takeFacts tx) n k]
  exact hx _

end Cert.Domain
-- ==== Proof.Law.lean ====
/-
  Under the printed precondition the two results agree at every entry.

  The precondition gives real entries of the table and of the three matrices, real weights, and integers that are
  rows of the table; then the selected tokens are real, and for real entries the weight of a token moves out of the
  sum over the hidden units.
-/
import proofs.«150833_j17051020165440_2_alg».proof.Proof.Algebra
import proofs.«150833_j17051020165440_2_alg».proof.Proof.Domain
import proofs.«150833_j17051020165440_2_alg».proof.Proof.TakeReal

namespace Cert.Domain

open Idealize.ShloMosaic Idealize.ShloMosaic.ValueIdx Cert.Spec

/-- On the stated domain the weight applied before the last product and the weight applied after it give one result. -/
theorem law (x : FVec Ideal S16384x4096 .f32) (wg wu : FVec Ideal S14336x4096 .f32)
    (wd : FVec Ideal S4096x14336 .f32) (tx : IVec S4096 32) (w : FVec Ideal S4096 .f32)
    (h : Cert.Pre_finite_inputs.fn (F := Ideal) x wg wu wd tx w = fun _ => 1#1) (n j : Fin 4096) :
    outInside (takeRows takeFacts x tx) wg wu wd (fun n => w (ix1 n)) n j
      = outOutside (takeRows takeFacts x tx) wg wu wd (fun n => w (ix1 n)) n j := by
  obtain ⟨hx, hg, hu, hd, hw, ht⟩ := of_pre x wg wu wd tx w h
  exact inside_eq_outside (takeRows takeFacts x tx) wg wu wd (fun n => w (ix1 n))
    (takeRows_real x tx hx ht) hg hu hd (fun n => hw (ix1 n)) n j

end Cert.Domain
-- ==== Proof.Bridge.lean ====
/-
  The two arrangements of the routing weight give one result.

  The kernel multiplies the hidden activation of token `n` by the token's weight (read from the weights laid as a
  column) and then takes the product with the down projection; entry `(n, j)` of that is the sum over the hidden units
  of `(hid n i · w n) · Wd j i`. The reference takes the product first and multiplies entry `(n, j)` by `w n`. On the
  stated domain every factor is a real number, so `w n` is a common factor of the sum's terms and the two are equal.
-/
import proofs.«150833_j17051020165440_2_alg».proof.Proof.Spec
import proofs.«150833_j17051020165440_2_alg».proof.Proof.Law
import proofs.«150833_j17051020165440_2_alg».proof.Proof.LibKeepdims

noncomputable section

namespace Cert.Bridge

open Idealize.ShloMosaic Idealize.ShloMosaic.ValueIdx Cert.Spec

/-- The product of the weighted hidden activation with the down projection, the weights a column, is the result
    with the weight applied outside. -/
theorem inside_eq_result (x : FVec Ideal S16384x4096 .f32) (wg wu : FVec Ideal S14336x4096 .f32)
    (wd : FVec Ideal S4096x14336 .f32) (tx : IVec S4096 32) (w : FVec Ideal S4096 .f32)
    (hc : S4096.ShapeCasts S4096x1)
    (hpre : Cert.Pre_finite_inputs.fn (F := Ideal) x wg wu wd tx w = fun _ => 1#1) :
    rowsDot (hiddenW (takeRows takeFacts x tx) wg wu (shapeCast S4096x1 w hc)) wd = result takeFacts x wg wu wd tx w := by
  funext j
  obtain ⟨n, q, rfl⟩ : ∃ (n : Fin 4096) (q : Fin 4096), j = ix2 n q := ⟨j 0, j 1, eq_ix2 j⟩
  rw [result_apply, ← Cert.Domain.law x wg wu wd tx w hpre n q, rowsDot_apply]
  unfold outInside
  refine Finset.sum_congr rfl fun i _ => ?_
  rw [hiddenW_apply, Cert.Keepdims.shapeCast_a_a1_apply]

end Cert.Bridge

end
-- ==== Proof.KernelValue.lean ====
/-
  The kernel's run and its value.

  After the run the result buffer holds the second region's output array: the first region's output array (the weighted
  hidden activation of the selected tokens) against the down projection, rows against rows. The first region's operands
  are what the host prepared from the arguments, and on the stated domain that product is the specification's result.
-/
import proofs.«150833_j17051020165440_2_alg».proof.Defs
import proofs.«150833_j17051020165440_2_alg».proof.Proof.Prefix
import proofs.«150833_j17051020165440_2_alg».proof.Proof.DownValue
import proofs.«150833_j17051020165440_2_alg».proof.Proof.GateUp
import proofs.«150833_j17051020165440_2_alg».proof.Proof.KernelRun
import proofs.«150833_j17051020165440_2_alg».proof.Proof.Bridge

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx

variable (m : (ℓ : Loc nD τ sig) → Buf (Elt Ideal) ℓ) (ρ : Dev nD → PrngReg)

/-- The result buffer's contents at the last boundary, of the argument arrays. -/
theorem W4_result (c : Dev nD) :
    (W4 m ρ c (Proc.devRef .tc main_v4) : S4096x4096.Idx → EReal)
      = Cert.Spec.rowsDot
          (Cert.Spec.hiddenW
            (Cert.Spec.takeRows Cert.Spec.takeFacts (m ((c.tc : Thread nD τ).loc main_arg0)) (m ((c.tc : Thread nD τ).loc main_arg4)))
            (m ((c.tc : Thread nD τ).loc main_arg1)) (m ((c.tc : Thread nD τ).loc main_arg2))
            (shapeCast S4096x1 (m ((c.tc : Thread nD τ).loc main_arg5)) shapeCasts_S4096_S4096x1))
          (m ((c.tc : Thread nD τ).loc main_arg3)) := by
  refine (W4_arr m ρ c 2).trans ?_
  refine (Cert.KernelIdeal.Down.arrAt_rowsDot (V3 m ρ) c).trans ?_
  have e2 : (V3 m ρ c main_v3 : S4096x14336.Idx → EReal)
      = Cert.Spec.hiddenW (V2 m ρ c main_v1) (V2 m ρ c main_arg1) (V2 m ρ c main_arg2) (V2 m ρ c main_v2) :=
    (W3_arr m ρ c 4).trans (Cert.KernelIdeal.GateUp.arrAt_hidden (V2 m ρ) c)
  rw [e2, Cert.KernelIdeal.Prefix.V3_down, Cert.KernelIdeal.Prefix.V2_tokens, Cert.KernelIdeal.Prefix.V2_weight,
    Cert.KernelIdeal.Prefix.V2_gate, Cert.KernelIdeal.Prefix.V2_up]

/-- On the stated domain every weakly fair execution terminates with the result buffer at the specification's result
    of the argument arrays, and the arguments as launched. -/
theorem run (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v4)
        = Cert.Spec.result Cert.Spec.takeFacts (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun r h c => ⟨((h c).1.trans (W4_result m ρ c)).trans
        (Cert.Bridge.inside_eq_result _ _ _ _ _ _ shapeCasts_S4096_S4096x1 (hpre c)), (h c).2⟩)
    (Cert.KernelIdeal.Run.run_result m ρ)

end Cert.KernelIdeal.Value

end
-- ==== Proof.RefRun.lean ====
/-
  The reference program as a straight line of host operations.

  The reference's entry function calls three local functions: the token selection (which itself calls a three-way
  select), and the activation. A call executes the callee's body on the operands, so the entry function is one line
  of thirty-nine operations: the selection's twenty-three (the select of the inner call among them), the two
  projections, the activation's nine, the product with the second projection, the last contraction, the weight
  laid as a column and spread along the rows, and the final product. The line's run ends with every buffer at the
  fold of the operations' functions over the launch contents.
-/
import proofs.«150833_j17051020165440_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's thirty-nine operations, in order, each call replaced by the callee's operations over
    that call's buffers. -/
abbrev ops : List (HloOp τ sig (Elt F)) :=
  [ -- the token selection, over the table and the integers
    TRef.nullary main_call0.c (constantI S_ 32 0#32),
    TRef.unary main_call0.c main_call0.v0 (broadcastInDim S4096 ![] bcast_S_S4096),
    TRef.binary (.of main_arg4) main_call0.v0 main_call0.v1 (cmpi .slt),
    TRef.nullary main_call0.c_0 (constantI S_ 32 16384#32),
    TRef.unary main_call0.c_0 main_call0.v2 (broadcastInDim S4096 ![] bcast_S_S4096),
    TRef.binary (.of main_arg4) main_call0.v2 main_call0.v3 addi,
    TRef.ternary main_call0.v1 main_call0.v3 (.of main_arg4) main_call0.call0.v0 select,
    TRef.unary main_call0.call0.v0 main_call0.v5 (broadcastInDim S4096x1 ![0] bcast_S4096_S4096x1_0),
    TRef.nullary main_call0.c_1 (constantI S1 32 16383#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S16384x4096_S4096x1_S4096x4096_1_0_n_n_0_1_14096 x i),
    TRef.unary main_call0.v12 main_call0.v14 (broadcastInDim S4096x4096 ![0] bcast_S4096_S4096x4096_0),
    TRef.nullary main_call0.cst (constant S_ .f32 0x7FC00000#32),
    TRef.unary main_call0.cst main_call0.v15 (broadcastInDim S4096x4096 ![] bcast_S_S4096x4096),
    TRef.ternary main_call0.v14 main_call0.v13 main_call0.v15 main_call0.v16 select,
    -- the two projections
    binary main_v0 main_arg1 main_v1 ((fun l r => Host.dotGeneral dot_S4096x4096_S14336x4096_S4096x14336_1_1_0_0_n_n none l r) : (⟨S4096x4096, .f32⟩ : BufTy).Contents (Elt F) → (⟨S14336x4096, .f32⟩ : BufTy).Contents (Elt F) → (⟨S4096x14336, .f32⟩ : BufTy).Contents (Elt F)),
    binary main_v0 main_arg2 main_v2 ((fun l r => Host.dotGeneral dot_S4096x4096_S14336x4096_S4096x14336_1_1_0_0_n_n none l r) : (⟨S4096x4096, .f32⟩ : BufTy).Contents (Elt F) → (⟨S14336x4096, .f32⟩ : BufTy).Contents (Elt F) → (⟨S4096x14336, .f32⟩ : BufTy).Contents (Elt F)),
    -- the activation of the first projection
    TRef.unary (.of main_v1) main_call1.v0 Host.negf,
    TRef.unary main_call1.v0 main_call1.v1 Host.exp,
    TRef.nullary main_call1.cst (constant S_ .f32 0x3F800000#32),
    TRef.unary main_call1.cst main_call1.v2 (broadcastInDim S4096x14336 ![] bcast_S_S4096x14336),
    TRef.binary main_call1.v2 main_call1.v1 main_call1.v3 addf,
    TRef.nullary main_call1.cst_0 (constant S_ .f32 0x3F800000#32),
    TRef.unary main_call1.cst_0 main_call1.v4 (broadcastInDim S4096x14336 ![] bcast_S_S4096x14336),
    TRef.binary main_call1.v4 main_call1.v3 main_call1.v5 Host.divf,
    TRef.binary (.of main_v1) main_call1.v5 main_call1.v6 mulf,
    -- the hidden activation, the last contraction, the weight as a column spread along the rows, the product
    binary main_v3 main_v2 main_v4 (mulf : (⟨S4096x14336, .f32⟩ : BufTy).Contents (Elt F) → (⟨S4096x14336, .f32⟩ : BufTy).Contents (Elt F) → (⟨S4096x14336, .f32⟩ : BufTy).Contents (Elt F)),
    binary main_v4 main_arg3 main_v5 ((fun l r => Host.dotGeneral dot_S4096x14336_S4096x14336_S4096x4096_1_1_0_0_n_n none l r) : (⟨S4096x14336, .f32⟩ : BufTy).Contents (Elt F) → (⟨S4096x14336, .f32⟩ : BufTy).Contents (Elt F) → (⟨S4096x4096, .f32⟩ : BufTy).Contents (Elt F)),
    unary main_arg5 main_v6 (broadcastInDim S4096x1 ![0] bcast_S4096_S4096x1_0 : (⟨S4096, .f32⟩ : BufTy).Contents (Elt F) → (⟨S4096x1, .f32⟩ : BufTy).Contents (Elt F)),
    unary main_v6 main_v7 (broadcastInDim S4096x4096 ![0, 1] bcast_S4096x1_S4096x4096_0_1 : (⟨S4096x1, .f32⟩ : BufTy).Contents (Elt F) → (⟨S4096x4096, .f32⟩ : BufTy).Contents (Elt F)),
    binary main_v5 main_v7 main_v8 (mulf : (⟨S4096x4096, .f32⟩ : BufTy).Contents (Elt F) → (⟨S4096x4096, .f32⟩ : BufTy).Contents (Elt F) → (⟨S4096x4096, .f32⟩ : BufTy).Contents (Elt F)) ]

-- thirty-nine binds re-associated, one recursion of the rewrite per statement
set_option maxRecDepth 2048 in
/-- The entry function is that line: the callees' definitions unfolded at their calls, both sides are one chain of
    steps once the sequencing is re-associated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub ..,
    binary_bufs_sub .., binary_bufs_sub .., unary_bufs_sub .., unary_bufs_sub .., binary_bufs_sub ..⟩

/-- For any float values, from any memory with zero counters: every weakly fair execution of the entry function
    terminates, and every final state has each buffer of the core at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTail.lean ====
/-
  The reference after the token selection, read entry by entry.

  From the selected tokens `X` the reference forms the two projections `X · Wgᵀ` and `X · Wuᵀ`, applies to the first
  the activation `g ↦ g · 1/(1 + e^(-g))` (negate, exponential, one plus it, one over that, times `g`; each one is
  the word of the float one, broadcast), multiplies by the second, contracts against the rows of `Wd`, and multiplies
  each row of the product by its token's weight (the weight vector laid as a column and repeated along the rows).
  Entry `(n, j)` of the result is therefore `(∑ᵢ silu(gₙᵢ) · uₙᵢ · Wd[j,i]) · w[n]`: the specification's form with the
  weight applied after the last product.
-/
import proofs.«150833_j17051020165440_2_alg».proof.Proof.Gen.ReferenceIdeal
import proofs.«150833_j17051020165440_2_alg».proof.Proof.Spec
import proofs.«150833_j17051020165440_2_alg».proof.Proof.LibContractRows
import proofs.«150833_j17051020165440_2_alg».proof.Proof.LibColumnInDim
import Idealize.ShloMosaic.Lib.IdealHost

noncomputable section

namespace Cert.ReferenceIdeal.RefTail

open Cert.ReferenceIdeal Cert.ReferenceIdeal.Gen Idealize.ShloMosaic Idealize.ShloMosaic.ValueIdx

/-- The activation's nine operations composed: `g · (1 / (1 + e^(-g)))`, the two ones each a broadcast constant. -/
def act (g : FVec Ideal S4096x14336 .f32) : FVec Ideal S4096x14336 .f32 :=
  mulf g
    (Host.divf (F := Ideal) (broadcastInDim S4096x14336 ![] bcast_S_S4096x14336 (constant (F := Ideal) S_ .f32 0x3F800000#32))
      (addf (broadcastInDim S4096x14336 ![] bcast_S_S4096x14336 (constant (F := Ideal) S_ .f32 0x3F800000#32))
        (Host.exp (F := Ideal) (Host.negf (F := Ideal) g))))

/-- The sixteen operations after the selection composed, over the selected tokens `X`. -/
def tail (X : FVec Ideal S4096x4096 .f32) (wg wu : FVec Ideal S14336x4096 .f32) (wd : FVec Ideal S4096x14336 .f32)
    (w : FVec Ideal S4096 .f32) : FVec Ideal S4096x4096 .f32 :=
  mulf
    (Host.dotGeneral (F := Ideal) dot_S4096x14336_S4096x14336_S4096x4096_1_1_0_0_n_n none
      (mulf (act (Host.dotGeneral (F := Ideal) dot_S4096x4096_S14336x4096_S4096x14336_1_1_0_0_n_n none X wg))
        (Host.dotGeneral (F := Ideal) dot_S4096x4096_S14336x4096_S4096x14336_1_1_0_0_n_n none X wu))
      wd)
    (broadcastInDim S4096x4096 ![0, 1] bcast_S4096x1_S4096x4096_0_1 (broadcastInDim S4096x1 ![0] bcast_S4096_S4096x1_0 w))

/-- The broadcast word `0x3F800000` is the number one at every entry. -/
theorem one_apply (j : S4096x14336.Idx) :
    broadcastInDim S4096x14336 ![] bcast_S_S4096x14336 (constant (F := Ideal) S_ .f32 0x3F800000#32) j = (1 : EReal) := by
  rw [broadcastInDim_scalar_apply, constant_apply, Ideal.ofBits_one_f32]

/-- The activation at an entry is the specification's `silu` of that entry: the operands of the printed sum are in
    the order one, then the exponential. -/
theorem act_apply (g : FVec Ideal S4096x14336 .f32) (j : S4096x14336.Idx) : act g j = Cert.Spec.silu (g j) := by
  show g j * Ideal.div (broadcastInDim S4096x14336 ![] bcast_S_S4096x14336 (constant (F := Ideal) S_ .f32 0x3F800000#32) j)
      (broadcastInDim S4096x14336 ![] bcast_S_S4096x14336 (constant (F := Ideal) S_ .f32 0x3F800000#32) j + Ideal.exp (-(g j)))
    = g j * Ideal.div 1 (1 + Ideal.exp (-(g j)))
  rw [one_apply]

/-- The projections' dimension numbers: contract the last axis of both operands, no batch axis. -/
theorem dot_in_eq : dot_S4096x4096_S14336x4096_S4096x14336_1_1_0_0_n_n = DotDims.transposedRhs 4096 4096 14336 := rfl

/-- The last contraction's dimension numbers: the same form over the hidden units. -/
theorem dot_out_eq : dot_S4096x14336_S4096x14336_S4096x4096_1_1_0_0_n_n = DotDims.transposedRhs 4096 14336 4096 := rfl

/-- A projection at `(n, i)`: token `n` against row `i` of the matrix. -/
theorem proj_apply (X : FVec Ideal S4096x4096 .f32) (W : FVec Ideal S14336x4096 .f32) (n : Fin 4096) (i : Fin 14336) :
    Host.dotGeneral (F := Ideal) dot_S4096x4096_S14336x4096_S4096x14336_1_1_0_0_n_n none X W (ix2 n i) = Cert.Spec.proj X W n i := by
  rw [dot_in_eq]
  exact Idealize.ShloMosaic.ContractRows.dotGeneral_apply none .single X W n i

/-- The last contraction at `(n, j)`: row `n` of the hidden activation against row `j` of `Wd`. -/
theorem contract_apply (H wd : FVec Ideal S4096x14336 .f32) (n j : Fin 4096) :
    Host.dotGeneral (F := Ideal) dot_S4096x14336_S4096x14336_S4096x4096_1_1_0_0_n_n none H wd (ix2 n j)
      = ∑ i : Fin 14336, H (ix2 n i) * wd (ix2 j i) := by
  rw [dot_out_eq]
  exact Idealize.ShloMosaic.ContractRows.dotGeneral_apply none .single H wd n j

/-- The tail at `(n, j)`: the sum over the hidden units of the hidden activation against row `j` of `Wd`, times
    token `n`'s weight. -/
theorem tail_apply (X : FVec Ideal S4096x4096 .f32) (wg wu : FVec Ideal S14336x4096 .f32) (wd : FVec Ideal S4096x14336 .f32)
    (w : FVec Ideal S4096 .f32) (n j : Fin 4096) :
    tail X wg wu wd w (ix2 n j) = Cert.Spec.outOutside X wg wu wd (fun n => w (ix1 n)) n j := by
  unfold tail Cert.Spec.outOutside
  rw [mulf_apply, contract_apply, Cert.Lib.ColumnInDim.spread_apply (by decide), Cert.Lib.ColumnInDim.column_apply (by decide)]
  refine congrArg (· * w (ix1 n)) (Finset.sum_congr rfl fun i _ => ?_)
  rw [mulf_apply, act_apply, proj_apply, proj_apply]
  rfl

/-- The tail is the specification's result array over the selected tokens, the weight outside. -/
theorem tail_eq (X : FVec Ideal S4096x4096 .f32) (wg wu : FVec Ideal S14336x4096 .f32) (wd : FVec Ideal S4096x14336 .f32)
    (w : FVec Ideal S4096 .f32) :
    tail X wg wu wd w = fun j => Cert.Spec.outOutside X wg wu wd (fun n => w (ix1 n)) (j 0) (j 1) := by
  funext j
  obtain ⟨n, q, rfl⟩ : ∃ (n : Fin 4096) (q : Fin 4096), j = ix2 n q := ⟨j 0, j 1, eq_ix2 j⟩
  exact tail_apply X wg wu wd w n q

end Cert.ReferenceIdeal.RefTail

end
-- ==== Proof.RefTerm.lean ====
/-
  What the reference's line of operations leaves in its result buffer, as one term of the argument arrays.

  The fold of the thirty-nine operations at the result buffer is the composition of their functions: the selected
  tokens (the selection's twenty-three operations are, verbatim, the specification's `takeRows`), then the sixteen
  operations of the feed-forward block. The argument buffers are written by no operation and keep their contents.
-/
import proofs.«150833_j17051020165440_2_alg».proof.Proof.RefRun
import proofs.«150833_j17051020165440_2_alg».proof.Proof.RefTail
import proofs.«150833_j17051020165440_2_alg».proof.Proof.LibTRefCast

noncomputable section

namespace Cert.ReferenceIdeal.RefTerm

open Cert.ReferenceIdeal Cert.ReferenceIdeal.Gen Cert.ReferenceIdeal.RefRun Cert.ReferenceIdeal.RefTail Idealize.ShloMosaic Idealize.ShloMosaic.TcCoe Idealize.SL.Sem Idealize.ShloMosaic.StableHlo

attribute [local irreducible] Host.reduce Host.gather in
/-- The fold at the selection's result buffer is the specification's selected tokens: each operation's result read
    where it is written, the typed references' transports removed, the two spellings are one composition. -/
theorem take_eq (V : Valuation τ sig (Elt Ideal)) :
    after (ops (F := Ideal)) V (main_v0 : DevRef τ sig)
      = Cert.Spec.takeRows Cert.Spec.takeFacts (V (main_arg0 : DevRef τ sig)) (V (main_arg4 : DevRef τ sig)) := by
  after_results_simp
  simp only [Cert.Lib.TRefCast.ofBuf_toBuf]
  rfl

attribute [local irreducible] Host.reduce Host.gather in
/-- The fold at the result buffer is the feed-forward block of the selected tokens and the other arguments. -/
theorem out_eq (V : Valuation τ sig (Elt Ideal)) :
    after (ops (F := Ideal)) V (main_v8 : DevRef τ sig)
      = tail (Cert.Spec.takeRows Cert.Spec.takeFacts (V (main_arg0 : DevRef τ sig)) (V (main_arg4 : DevRef τ sig)))
          (V (main_arg1 : DevRef τ sig)) (V (main_arg2 : DevRef τ sig)) (V (main_arg3 : DevRef τ sig)) (V (main_arg5 : DevRef τ sig)) := by
  after_results_simp
  simp only [Cert.Lib.TRefCast.ofBuf_toBuf]
  rfl

/-- The fold at the result buffer is the specification's result array. -/
theorem result_eq (V : Valuation τ sig (Elt Ideal)) :
    after (ops (F := Ideal)) V (main_v8 : DevRef τ sig)
      = Cert.Spec.result Cert.Spec.takeFacts (V (main_arg0 : DevRef τ sig)) (V (main_arg1 : DevRef τ sig)) (V (main_arg2 : DevRef τ sig))
          (V (main_arg3 : DevRef τ sig)) (V (main_arg4 : DevRef τ sig)) (V (main_arg5 : DevRef τ sig)) :=
  (out_eq V).trans (tail_eq _ _ _ _ _)

theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp
theorem arg4_eq (V : Valuation τ sig (Elt Ideal)) : after (ops (F := Ideal)) V (main_arg4 : DevRef τ sig) = V (main_arg4 : DevRef τ sig) := by
  after_results_simp
theorem arg5_eq (V : Valuation τ sig (Elt Ideal)) : after (ops (F := Ideal)) V (main_arg5 : DevRef τ sig) = V (main_arg5 : DevRef τ sig) := by
  after_results_simp

end Cert.ReferenceIdeal.RefTerm

end
-- ==== Proof.RefValue.lean ====
/-
  The reference's run and its value.

  Every weakly fair execution of the reference terminates; its result buffer then holds the specification's result
  array of the argument arrays at launch — the tokens selected through the integers, the feed-forward block over
  them, each token's weight applied after the last product — and the six argument buffers hold what they held.
-/
import proofs.«150833_j17051020165440_2_alg».proof.Proof.RefTerm

noncomputable section

namespace Cert.ReferenceIdeal.RefValue

open Cert.ReferenceIdeal Cert.ReferenceIdeal.Gen Cert.ReferenceIdeal.RefRun Cert.ReferenceIdeal.RefTerm Idealize.ShloMosaic Idealize.ShloMosaic.TcCoe Idealize.SL.Sem Idealize.ShloMosaic.StableHlo

/-- On every device, from any memory with zero counters: the reference runs, its result is the specification's
    result array of the launch contents of its arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = Cert.Spec.result Cert.Spec.takeFacts (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v8).trans (result_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_main (F := Ideal) m ρ)

end Cert.ReferenceIdeal.RefValue

end
-- ==== Proof.lean ====
/-
  A gated feed-forward block over selected tokens, with the routing weight applied before or after the last product.

  Both programs select 4096 tokens from a table by integer indices, form the gate and up projections, the hidden
  activation `silu g · u`, and the product with the down projection. The kernel multiplies each token's hidden activation
  by the token's routing weight before that product (in its first region) and accumulates the product over 28 blocks
  of hidden units (in its second); the reference multiplies the finished product by the weight. On the stated domain
  — every float input finite, every index a row of the table, so that no selected token is the not-a-number fill —
  every factor is a real number, the weight of a token is a common factor of its sum over the hidden units, and the
  two results are one array: the specification's `result` (Proof/Spec.lean).

  The kernel's two frames are the generated ones; the reference's frame is its run with the result dropped; the ideal
  pass rewrote nothing, so `preserves` is `True`; `algebraic` puts the kernel's run (its result buffer read through
  the two regions' output arrays) beside the reference's run, both at the specification's result of arguments that agree.
-/
import proofs.«150833_j17051020165440_2_alg».proof.Defs
import proofs.«150833_j17051020165440_2_alg».proof.Proof.Gen.Kernel
import proofs.«150833_j17051020165440_2_alg».proof.Proof.Gen.Kernel.Frame
import proofs.«150833_j17051020165440_2_alg».proof.Proof.Gen.KernelIdeal
import proofs.«150833_j17051020165440_2_alg».proof.Proof.Gen.KernelIdeal.Frame
import proofs.«150833_j17051020165440_2_alg».proof.Proof.Gen.ReferenceIdeal
import proofs.«150833_j17051020165440_2_alg».proof.Proof.Gen.Pre_finite_inputs
import proofs.«150833_j17051020165440_2_alg».proof.Proof.KernelValue
import proofs.«150833_j17051020165440_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- On the stated domain both programs end with the specification's result of their arguments, and the arguments
    agree. -/
theorem algebraic : Cert.algebraic_KernelIdeal_ReferenceIdeal := by
  intro m ρ m' ρ' hpre hagree
  refine ⟨fun c => Cert.Spec.result Cert.Spec.takeFacts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Value.run m ρ hpre, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
